-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x8 : Shape := ⟨2, ![32, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x32 .f32) (main_arg3 : FVec F S32 .f32) (main_arg4 : FVec F S32x8 .f32) (main_arg5 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg4
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x8 : Shape := ⟨2, ![32, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S10000x128 : Shape := ⟨2, ![10000, 128]⟩
abbrev S10000x32 : Shape := ⟨2, ![10000, 32]⟩
abbrev S3300000x32 : Shape := ⟨2, ![3300000, 32]⟩
abbrev S1x32 : Shape := ⟨2, ![1, 32]⟩
abbrev S100000x8 : Shape := ⟨2, ![100000, 8]⟩
abbrev S10000x8 : Shape := ⟨2, ![10000, 8]⟩
abbrev S3300000x8 : Shape := ⟨2, ![3300000, 8]⟩
abbrev S1x8 : Shape := ⟨2, ![1, 8]⟩
abbrev S10000 : Shape := ⟨1, ![10000]⟩
abbrev S10000x1 : Shape := ⟨2, ![10000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x8, .f32⟩
  | .hbm, ⟨65, _⟩ => ⟨S_, .i32⟩
  | .hbm, ⟨66, _⟩ => ⟨S3300000, .i32⟩
  | .hbm, ⟨67, _⟩ => ⟨S3300000, .i1⟩
  | .hbm, ⟨68, _⟩ => ⟨S_, .i32⟩
  | .hbm, ⟨69, _⟩ => ⟨S3300000, .i32⟩
  | .hbm, ⟨70, _⟩ => ⟨S3300000, .i32⟩
  | .hbm, ⟨71, _⟩ => ⟨S3300000, .i32⟩
  | .hbm, ⟨72, _⟩ => ⟨S3300000x1, .i32⟩
  | .hbm, ⟨73, _⟩ => ⟨S3300000x8, .f32⟩
  | .hbm, ⟨74, _⟩ => ⟨S3300000x1, .f32⟩
  | .hbm, ⟨75, _⟩ => ⟨S3300000x8, .f32⟩
  | .hbm, ⟨76, _⟩ => ⟨S3300000x8, .f32⟩
  | .hbm, ⟨77, _⟩ => ⟨S_, .f32⟩
  | .hbm, ⟨78, _⟩ => ⟨S100000x8, .f32⟩
  | .hbm, ⟨79, _⟩ => ⟨S3300000x1, .i32⟩
  | .hbm, ⟨80, _⟩ => ⟨S100000x8, .f32⟩
  | .hbm, ⟨81, _⟩ => ⟨S1x8, .f32⟩
  | .hbm, ⟨82, _⟩ => ⟨S100000x8, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x8, .f32⟩
  | .local _ .vmem, ⟨9, _⟩ => ⟨S10000x8, .f32⟩
  | .local _ .vmem, ⟨10, _⟩ => ⟨S10000x8, .f32⟩
  | .local _ .vmem, ⟨11, _⟩ => ⟨S10000x8, .f32⟩
  | .local _ .vmem, ⟨12, _⟩ => ⟨S10000x8, .f32⟩
  | .local _ .vmem, ⟨13, _⟩ => ⟨S1x8, .f32⟩
  | .local _ .vmem, ⟨14, _⟩ => ⟨S10000x8, .f32⟩
  | .local _ .vmem, ⟨15, _⟩ => ⟨S10000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x8_S32x8_0_0 : ∀ a, (![0, 0] : Fin 2 → Nat) a + S32x8.size a ≤ S32x8.size a
  h_S32x8 : 0 < S32x8.numel
  inb_S10000x8_S10000x8_0_0 : ∀ a, (![0, 0] : Fin 2 → Nat) a + S10000x8.size a ≤ S10000x8.size a
  h_S10000x8 : 0 < S10000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  shapeCasts_S8_S1x8 : S8.ShapeCasts S1x8
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  reduces_S10000x8_S10000 : S10000x8.Reduces [1] S10000
  shapeCasts_S10000_S10000x1 : S10000.ShapeCasts S10000x1
  broadcasts_S10000x1_S10000x8 : S10000x1.Broadcasts S10000x8
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x8_S10000x8_1_0_0_1_n_n_wf : DotDims.WF S10000x32 S32x8 S10000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x8.size a ≤ S32x8.size a
  hwx1_2 : ∀ i : grid1.Coords, EltTy.bits .f32 = 32 ∨ (Rect.block (s := S32x8) S32x8.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x8.size a ≤ S100000x8.size a
  hwx1_3 : ∀ i : grid1.Coords, EltTy.bits .f32 = 32 ∨ (Rect.block (s := S100000x8) S10000x8.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x8.size a ≤ S100000x8.size a
  hwx2_0 : ∀ i : grid2.Coords, EltTy.bits .f32 = 32 ∨ (Rect.block (s := S100000x8) S10000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x8.size a ≤ S100000x8.size a
  hwx2_2 : ∀ i : grid2.Coords, EltTy.bits .f32 = 32 ∨ (Rect.block (s := S100000x8) S10000x8.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x8_S10000x8_1_0_0_1_n_n : DotDims S10000x32 S32x8 S10000x8 where
  lhsContracting := [1]
  rhsContracting := [0]
  lhsNonContracting := [0]
  rhsNonContracting := [1]
  lhsBatch := []
  rhsBatch := []
  wf := dot_S10000x32_S32x8_S10000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S10000x8.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S10000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S10000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x8 : Shape := ⟨2, ![32, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x32, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x32, .f32⟩
  | .hbm, ⟨56, _⟩ => ⟨S3300000x1, .f32⟩
  | .hbm, ⟨57, _⟩ => ⟨S3300000x32, .f32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000x8, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x8, .f32⟩
  | .hbm, ⟨79, _⟩ => ⟨S3300000x1, .f32⟩
  | .hbm, ⟨80, _⟩ => ⟨S3300000x8, .f32⟩
  | .hbm, ⟨81, _⟩ => ⟨S3300000x8, .f32⟩
  | .hbm, ⟨82, _⟩ => ⟨S_, .f32⟩
  | .hbm, ⟨83, _⟩ => ⟨S100000x8, .f32⟩
  | .hbm, ⟨84, _⟩ => ⟨S3300000x1, .i32⟩
  | .hbm, ⟨85, _⟩ => ⟨S100000x8, .f32⟩
  | .hbm, ⟨86, _⟩ => ⟨S1x8, .f32⟩
  | .hbm, ⟨87, _⟩ => ⟨S100000x8, .f32⟩
  | .hbm, ⟨88, _⟩ => ⟨S100000x8, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x8, .f32⟩
  | .hbm, ⟨96, _⟩ => ⟨S100000x8, .f32⟩
  | .hbm, ⟨97, _⟩ => ⟨S100000x8, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x8, .f32⟩
  | .hbm, ⟨103, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x8_S100000x8_1_0_0_1_n_n_wf : DotDims.WF S100000x32 S32x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The idealized kernel program's run with its RESULT read: every weakly fair execution of @main terminates without a
  fault, the result array `main_v60` ends holding what the last segment boundary's contents `W8` give it, and the six
  argument arrays end as launched. @main is eight segments — three stretches of host operations, the first
  pallas_call, a stretch, the second pallas_call, a stretch, the third pallas_call — and `W0 … W8` are the buffer
  contents at the boundaries: a host stretch applies its operations, a pallas_call replaces its arrays by what its
  write-backs leave. The launch over the segments ends with every unscoped buffer at `W8`; the frame statement reads
  only the arguments off that state, and here the result buffer is read off it as well.
-/
import proofs.«131457_j35519379537969_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- The run over the eight segments, its last thread state read against the final memory at the result buffer and at
    each argument buffer. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.Spec.lean ====
/-
  The three dense stages of a two-layer graph convolution network, each as ONE function of whole arrays over the
  extended reals, index by index:
    • `dense x w`        — the product of an [n, k] matrix with a [k, p] matrix: entry (r, c) is Σ_q x[r, q] · w[q, c];
    • `hidden a b w`     — the bias b added to every row of a, the positive part taken against the literal zero, and
                            the result multiplied by w: entry (r, c) is Σ_q max (a[r, q] + b[q]) 0 · w[q, c];
    • `logSoftmax a b`   — the bias b added to every row of a and the row-wise log-softmax taken, in the shifted
                            form: with o[q] = a[r, q] + b[q] and M the maximum of the row's entries (a fold of `max`
                            from the literal −∞), entry (r, c) is (o[c] − M) − log Σ_q exp (o[q] − M).
  Both programs compute these three functions; between them stand gathers, a scaling and scatter-additions that
  the two programs share, operation for operation. The float literals are kept as their bit patterns: the same word
  stands on both sides and is never evaluated.
-/
import Idealize.ShloMosaic.Lib.ValueIdx
import Idealize.ShloMosaic.PureOps.Ideal.Laws

noncomputable section

namespace Cert.GCN

open Idealize.ShloMosaic Idealize.ShloMosaic.ValueIdx
open scoped BigOperators

/-- An [a, b] matrix and an [a] vector of extended reals. -/
abbrev Mat (a b : ℕ) : Type := (⟨2, ![a, b]⟩ : Shape).Idx → EReal
abbrev Vct (a : ℕ) : Type := (⟨1, ![a]⟩ : Shape).Idx → EReal

variable {n k p : ℕ}

/-- The matrix product: entry (r, c) is the sum over the contracted coordinate q of x[r, q] · w[q, c]. -/
def dense (x : Mat n k) (w : Mat k p) : Mat n p :=
  fun i => ∑ q : Fin k, x (ix2 (n0 := n) (i 0) q) * w (ix2 (n1 := p) q (i 1))

theorem dense_ix (x : Mat n k) (w : Mat k p) (r : Fin n) (c : Fin p) :
    dense x w (ix2 r c) = ∑ q : Fin k, x (ix2 r q) * w (ix2 q c) := rfl

/-- The hidden layer: bias, positive part (against the literal zero), then the matrix product. -/
def hidden (a : Mat n k) (b : Vct k) (w : Mat k p) : Mat n p :=
  fun i => ∑ q : Fin k, max (a (ix2 (n0 := n) (i 0) q) + b (ix1 q)) (Ideal.ofBits .f32 0x00000000#32) * w (ix2 (n1 := p) q (i 1))

theorem hidden_ix (a : Mat n k) (b : Vct k) (w : Mat k p) (r : Fin n) (c : Fin p) :
    hidden a b w (ix2 r c) = ∑ q : Fin k, max (a (ix2 r q) + b (ix1 q)) (Ideal.ofBits .f32 0x00000000#32) * w (ix2 q c) := rfl

/-- The maximum of k extended reals, as the fold of `max` from the literal −∞. -/
def rowMax (o : Fin k → EReal) : EReal :=
  (Finset.univ : Finset (Fin k)).fold max (Ideal.ofBits .f32 0xFF800000#32) o

/-- Taking the maximum once more against the fold's starting value changes nothing: the fold is above it. -/
theorem max_rowMax (o : Fin k → EReal) : max (Ideal.ofBits .f32 0xFF800000#32) (rowMax o) = rowMax o := by
  unfold rowMax
  exact max_eq_right ((Finset.le_fold_max _).mpr (Or.inl le_rfl))

/-- One row's log-softmax from its entries o, at the coordinate c, in the shifted form. -/
def lsmRow (o : Fin k → EReal) (c : Fin k) : EReal :=
  (o c - rowMax o) - Ideal.log (∑ q : Fin k, Ideal.exp (o q - rowMax o))

/-- The output layer: the bias added to every row, then the row-wise log-softmax. -/
def logSoftmax (a : Mat n k) (b : Vct k) : Mat n k :=
  fun i => lsmRow (fun q => a (ix2 (n0 := n) (i 0) q) + b (ix1 q)) (i 1)

theorem logSoftmax_ix (a : Mat n k) (b : Vct k) (r : Fin n) (c : Fin k) :
    logSoftmax a b (ix2 r c) = lsmRow (fun q => a (ix2 r q) + b (ix1 q)) c := rfl

end Cert.GCN

end
-- ==== Proof.HostTerms.lean ====
/-
  The host operations the two programs share, as functions of their operands, in the kernel program's vocabulary. The
  graph's edges arrive as a [2, 3200000] integer array; `srcOf` and `dstOf` are its two rows, each followed by the
  100000 self-loops 0, 1, …, 99999. `degrees` counts, for every node, the edges that end there (a scatter-addition
  of ones by target); `invSqrtDeg` is its inverse square root where the count is positive and zero elsewhere;
  `normOf` is, for every edge, the product of that quantity at its two ends. `wrapIdx` is jnp's indexing convention:
  a negative index has the array's extent added to it before the gather. An aggregation (`aggregate32`, `aggregate8`)
  gathers the rows of a node array at the edges' sources, scales row e by the edge's norm, and scatter-adds the rows at the
  edges' targets into zeros. These functions are only ever COMPARED (the same function of equal operands on both sides):
  none of them is opened.
-/
import proofs.«131457_j35519379537969_1_alg».proof.Proof.Gen.KernelIdeal
import proofs.«131457_j35519379537969_1_alg».proof.Proof.Spec

noncomputable section

namespace Cert.KernelIdeal.HostTerms

open Cert.KernelIdeal Idealize.ShloMosaic Cert.GCN
open Cert.KernelIdeal.Facts₀ Cert.KernelIdeal.Facts

variable {F : FTy → Type} [FloatOps F]

/-- Row 0 of the edge array, then the self-loops. -/
def srcOf (x1 : (⟨S2x3200000, .i32⟩ : BufTy).Contents (Elt F)) : (⟨S3300000, .i32⟩ : BufTy).Contents (Elt F) :=
  concatenate S3300000 0 [⟨S3200000, shapeCast _ (extractStridedSlice S1x3200000 ![0, 0] x1 slices_S2x3200000_S1x3200000_0_0) shapeCasts_S1x3200000_S3200000⟩, ⟨S100000, iotaInDim S100000 32 0⟩] concatenates_S3200000_S100000_S3300000_d0

/-- Row 1 of the edge array, then the self-loops. -/
def dstOf (x1 : (⟨S2x3200000, .i32⟩ : BufTy).Contents (Elt F)) : (⟨S3300000, .i32⟩ : BufTy).Contents (Elt F) :=
  concatenate S3300000 0 [⟨S3200000, shapeCast _ (extractStridedSlice S1x3200000 ![1, 0] x1 slices_S2x3200000_S1x3200000_1_0) shapeCasts_S1x3200000_S3200000⟩, ⟨S100000, iotaInDim S100000 32 0⟩] concatenates_S3200000_S100000_S3300000_d0

/-- An index array as a column of start indices. -/
def colIdx (d : (⟨S3300000, .i32⟩ : BufTy).Contents (Elt F)) : (⟨S3300000x1, .i32⟩ : BufTy).Contents (Elt F) :=
  broadcastInDim S3300000x1 ![0] bcast_S3300000_S3300000x1_0 d

/-- A negative index has 100000 added; the result as a column of start indices. -/
def wrapIdx (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32))) s)

/-- For every node, the number of edges that end there. -/
def degrees (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (colIdx (F := F) d)
    (broadcastInDim S3300000 ![] bcast_S_S3300000 (constant S_ .f32 0x3F800000#32))

/-- jnp.where against a scalar: the entries of a where p holds, the scalar z elsewhere. -/
def whereSel (p : (⟨S100000, .i1⟩ : BufTy).Contents (Elt F)) (a : (⟨S100000, .f32⟩ : BufTy).Contents (Elt F)) (z : (⟨S_, .f32⟩ : BufTy).Contents (Elt F)) : (⟨S100000, .f32⟩ : BufTy).Contents (Elt F) :=
  select p a (broadcastInDim S100000 ![] bcast_S_S100000 (id z))

/-- The inverse square root of the degree where it is positive, zero elsewhere. -/
def invSqrtDeg (d : (⟨S3300000, .i32⟩ : BufTy).Contents (Elt F)) : (⟨S100000, .f32⟩ : BufTy).Contents (Elt F) :=
  whereSel (F := F) (cmpf (F := F) .ogt (degrees (F := F) d) (broadcastInDim S100000 ![] bcast_S_S100000 (constant S_ .f32 0x00000000#32)))
    (Host.rsqrt (degrees (F := F) d)) (constant S_ .f32 0x00000000#32)

/-- For every edge, the product of a node array's entries at its two ends. -/
def normFrom (v : (⟨S100000, .f32⟩ : BufTy).Contents (Elt F)) (s d : (⟨S3300000, .i32⟩ : BufTy).Contents (Elt F)) : (⟨S3300000, .f32⟩ : BufTy).Contents (Elt F) :=
  mulf (Host.gather gather_S100000_S3300000x1_S3300000_n_0_n_n_0_1_1 v (wrapIdx (F := F) s))
    (Host.gather gather_S100000_S3300000x1_S3300000_n_0_n_n_0_1_1 v (wrapIdx (F := F) d))

/-- For every edge, the product of the inverse square roots of the degrees at its two ends. -/
def normOf (s d : (⟨S3300000, .i32⟩ : BufTy).Contents (Elt F)) : (⟨S3300000, .f32⟩ : BufTy).Contents (Elt F) :=
  normFrom (F := F) (invSqrtDeg (F := F) d) s d

/-- Gather the rows of a [100000, 32] array at the sources, scale by the norms, scatter-add at the targets. -/
def aggregate32 (h : (⟨S100000x32, .f32⟩ : BufTy).Contents (Elt F)) (s d : (⟨S3300000, .i32⟩ : BufTy).Contents (Elt F)) (n : (⟨S3300000, .f32⟩ : BufTy).Contents (Elt F)) : (⟨S100000x32, .f32⟩ : BufTy).Contents (Elt F) :=
  Host.scatterAdd scatter_S100000x32_S3300000x1_S3300000x32_1_0_0_1
    (broadcastInDim S100000x32 ![] bcast_S_S100000x32 (constant S_ .f32 0x00000000#32))
    (colIdx (F := F) d)
    (mulf (Host.gather gather_S100000x32_S3300000x1_S3300000x32_1_0_n_n_0_1_132 h (wrapIdx (F := F) s))
      (broadcastInDim S3300000x32 ![0, 1] bcast_S3300000x1_S3300000x32_0_1 (broadcastInDim S3300000x1 ![0] bcast_S3300000_S3300000x1_0 n)))

/-- The same over a [100000, 8] array. -/
def aggregate8 (h : (⟨S100000x8, .f32⟩ : BufTy).Contents (Elt F)) (s d : (⟨S3300000, .i32⟩ : BufTy).Contents (Elt F)) (n : (⟨S3300000, .f32⟩ : BufTy).Contents (Elt F)) : (⟨S100000x8, .f32⟩ : BufTy).Contents (Elt F) :=
  Host.scatterAdd scatter_S100000x8_S3300000x1_S3300000x8_1_0_0_1
    (broadcastInDim S100000x8 ![] bcast_S_S100000x8 (constant S_ .f32 0x00000000#32))
    (colIdx (F := F) d)
    (mulf (Host.gather gather_S100000x8_S3300000x1_S3300000x8_1_0_n_n_0_1_18 h (wrapIdx (F := F) s))
      (broadcastInDim S3300000x8 ![0, 1] bcast_S3300000x1_S3300000x8_0_1 (broadcastInDim S3300000x1 ![0] bcast_S3300000_S3300000x1_0 n)))

/-- The whole network as one function of the six argument arrays, at the extended reals: x · w₁, aggregated over the
    edges, through the hidden layer, aggregated again, through the biased log-softmax. -/
def network (x0 : (⟨S100000x128, .f32⟩ : BufTy).Contents (Elt Ideal)) (x1 : (⟨S2x3200000, .i32⟩ : BufTy).Contents (Elt Ideal))
    (x2 : (⟨S128x32, .f32⟩ : BufTy).Contents (Elt Ideal)) (x3 : (⟨S32, .f32⟩ : BufTy).Contents (Elt Ideal))
    (x4 : (⟨S32x8, .f32⟩ : BufTy).Contents (Elt Ideal)) (x5 : (⟨S8, .f32⟩ : BufTy).Contents (Elt Ideal)) :
    (⟨S100000x8, .f32⟩ : BufTy).Contents (Elt Ideal) :=
  logSoftmax
    (aggregate8 (F := Ideal) (hidden (aggregate32 (F := Ideal) (dense x0 x2) (srcOf x1) (dstOf x1) (normOf (srcOf x1) (dstOf x1))) x3 x4)
      (srcOf x1) (dstOf x1) (normOf (srcOf x1) (dstOf x1)))
    x5

end Cert.KernelIdeal.HostTerms

end
-- ==== Proof.Stage0.lean ====
/-
  The first pallas_call, at the extended reals: ten grid points, point t taking rows 10000·t … 10000·t + 9999 of the
  [100000, 128] array x and the whole [128, 32] array w, and writing rows 10000·t … of the [100000, 32] result. The body
  multiplies the two blocks on the matrix unit into a zero accumulator (the roundings to bf16 on the way in are the
  identity at the extended reals), so entry (r, c) of the block is Σ_q x[10000·t + r, q] · w[q, c]. The ten blocks tile
  the result, which therefore ends as `dense x w`: the matrix product of the two arrays as the call finds them.
  Everything is stated at ANY contents `V` of the buffers when the call is entered.
-/
import proofs.«131457_j35519379537969_1_alg».proof.Proof.Gen.KernelIdeal.Frame
import proofs.«131457_j35519379537969_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)
open Cert.GCN
open scoped BigOperators

variable (V : (c : Dev nD) → (b : Ref sig .tc) → Buf (Elt Ideal) ((c : Thread nD τ).loc b))

/-- The block product's dimension record: [10000, 128] × [128, 32] → [10000, 32], one contracted axis. -/
abbrev D0 : DotDims S10000x128 S128x32 S10000x32 := dot_S10000x128_S128x32_S10000x32_1_0_0_1_n_n

/-! ## The operand indices of the block product -/

theorem lhs_row (i : S10000x32.Idx) (q : D0.contr.Idx) : (D0.lhsIdx i q 0).val = (i 0).val := by
  unfold DotDims.lhsIdx
  rw [dif_neg (show ¬(0 : Fin S10000x128.rank) ∈ D0.lhsBatch by decide), dif_pos (show (0 : Fin S10000x128.rank) ∈ D0.lhsNonContracting by decide)]
  rfl
theorem lhs_col (i : S10000x32.Idx) (q : D0.contr.Idx) : (D0.lhsIdx i q 1).val = (q ⟨0, by decide⟩).val :=
  D0.lhsIdx_val_of_single rfl i q
theorem rhs_row (i : S10000x32.Idx) (q : D0.contr.Idx) : (D0.rhsIdx i q 0).val = (q ⟨0, by decide⟩).val :=
  D0.rhsIdx_val_of_single rfl i q
theorem rhs_col (i : S10000x32.Idx) (q : D0.contr.Idx) : (D0.rhsIdx i q 1).val = (i 1).val := by
  unfold DotDims.rhsIdx
  rw [dif_neg (show ¬(1 : Fin S128x32.rank) ∈ D0.rhsBatch by decide), dif_pos (show (1 : Fin S128x32.rank) ∈ D0.rhsNonContracting by decide)]
  rfl

/-! ## The body's stored value at an index -/

/-- Entry (r, c) of what the body stores is the sum over q of the first block at (r, q) times the second at (q, c). -/
theorem stored_ix (x0 : Vec Ideal S10000x128 .f32) (x1 : Vec Ideal S128x32 .f32) (r : Fin 10000) (c : Fin 32) :
    k0_pay1 x0 x1 (ix2 r c) = ∑ q : Fin 128, x0 (ix2 r q) * x1 (ix2 q c) := by
  unfold k0_pay1
  refine (Ideal.matmul_constant_zero_apply D0 none _ _ (ix2 r c)).trans ?_
  rw [← Equiv.sum_comp (contrEquiv1 D0 128 rfl rfl).symm]
  refine Finset.sum_congr rfl fun q _ => ?_
  have hk := contrEquiv1_symm_val D0 128 rfl rfl q
  have el : D0.lhsIdx (ix2 r c) ((contrEquiv1 D0 128 rfl rfl).symm q) = ix2 r q := funext fun a => Fin.ext (by
    match a with
    | ⟨0, _⟩ => exact lhs_row _ _
    | ⟨1, _⟩ => exact (lhs_col _ _).trans hk)
  have er : D0.rhsIdx (ix2 r c) ((contrEquiv1 D0 128 rfl rfl).symm q) = ix2 q c := funext fun a => Fin.ext (by
    match a with
    | ⟨0, _⟩ => exact (rhs_row _ _).trans hk
    | ⟨1, _⟩ => exact rhs_col _ _)
  show x0 (D0.lhsIdx (ix2 r c) ((contrEquiv1 D0 128 rfl rfl).symm q)) * x1 (D0.rhsIdx (ix2 r c) ((contrEquiv1 D0 128 rfl rfl).symm q)) = _
  rw [el, er]

/-! ## Where the blocks sit -/

theorem zero_off : (![0, 0] : Fin 2 → Nat) = fun _ => 0 := funext fun a => by fin_cases a <;> rfl

/-- The three index maps over the grid: the row-tiled windows are at block row t, the weight window at block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of point t's block of x is row 10000·t + r of the array. -/
theorem block_x (c : Dev nD) (t : Fin cfg0.N) (r : Fin 10000) (q : Fin 128) (R : Fin 100000) (hR : R.val = t.val * 10000 + r.val) :
    iblk0 V c 0 t (ix2 r q) = V c main_arg0 (ix2 R q) := by
  obtain ⟨e0, e1, e2, e3, e4, e5⟩ := block_index t
  show V c main_arg0 (((cfg0.win 0).blk t).view.emb (ix2 r q)) = V c main_arg0 (ix2 R q)
  have h : ((cfg0.win 0).blk t).view.emb (ix2 r q) = ix2 R q := funext fun a => Fin.ext (by
    match a with
    | ⟨0, _⟩ => show win0_0.index t (0 : Fin 2) * 10000 + 1 * r.val = R.val; omega
    | ⟨1, _⟩ => show win0_0.index t (1 : Fin 2) * 128 + 1 * q.val = q.val; omega)
  rw [h]

/-- Every point's block of w is the whole array. -/
theorem block_w (c : Dev nD) (t : Fin cfg0.N) (q : Fin 128) (cc : Fin 32) :
    iblk0 V c 1 t (ix2 q cc) = V c main_arg2 (ix2 q cc) := by
  obtain ⟨e0, e1, e2, e3, e4, e5⟩ := block_index t
  show V c main_arg2 (((cfg0.win 1).blk t).view.emb (ix2 q cc)) = V c main_arg2 (ix2 q cc)
  have h : ((cfg0.win 1).blk t).view.emb (ix2 q cc) = ix2 q cc := funext fun a => Fin.ext (by
    match a with
    | ⟨0, _⟩ => show win0_1.index t (0 : Fin 2) * 128 + 1 * q.val = q.val; omega
    | ⟨1, _⟩ => show win0_1.index t (1 : Fin 2) * 32 + 1 * cc.val = cc.val; omega)
  rw [h]

/-! ## What a point writes back, and the array after the call -/

/-- Point t writes back block t of the matrix product of the two arrays. -/
theorem flushed_eq (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S128x32) zero_off]
  obtain ⟨e0, e1, e2, e3, e4, e5⟩ := block_index t
  have hN : cfg0.N = 10 := N_0
  funext j
  obtain ⟨r, cc, rfl⟩ : ∃ (r : Fin 10000) (cc : Fin 32), j = ix2 r cc := ⟨j 0, j 1, eq_ix2 j⟩
  have hR : t.val * 10000 + r.val < 100000 := by have := t.isLt; have := r.isLt; omega
  show k0_pay1 (iblk0 V c 0 t) (iblk0 V c 1 t) (ix2 r cc)
    = dense (V c main_arg0) (V c main_arg2) (((cfg0.win 2).blk t).view.emb (ix2 r cc))
  have hemb : ((cfg0.win 2).blk t).view.emb (ix2 r cc) = ix2 (⟨t.val * 10000 + r.val, hR⟩ : Fin 100000) cc :=
    funext fun a => Fin.ext (by
      match a with
      | ⟨0, _⟩ => show win0_2.index t (0 : Fin 2) * 10000 + 1 * r.val = t.val * 10000 + r.val; omega
      | ⟨1, _⟩ => show win0_2.index t (1 : Fin 2) * 32 + 1 * cc.val = cc.val; omega)
  rw [hemb, dense_ix]
  refine (stored_ix (iblk0 V c 0 t) (iblk0 V c 1 t) r cc).trans (Finset.sum_congr rfl fun q _ => ?_)
  rw [block_x V c t r q ⟨t.val * 10000 + r.val, hR⟩ rfl, block_w V c t q cc]

/-- An index of the result is in point t's block iff each coordinate is in the block's range on its axis. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v30).slice (win0_2.rect t)).set ↔ _
  rw [View.set_slice_whole, Rect.mem_set_unit]
  exact Iff.rfl

/-- Row R of the result lies in the block of point R / 10000. -/
theorem covered (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 10 := N_0
  have hlt : (i 0).val / 10000 < cfg0.N := by rw [hN]; omega
  obtain ⟨e0, e1, e2, e3, e4, e5⟩ := block_index ⟨(i 0).val / 10000, hlt⟩
  refine ⟨⟨(i 0).val / 10000, hlt⟩, flush0_2 _, ?_⟩
  rw [mem_block]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, hlt⟩ (1 : Fin 2) * 32 ≤ (i 1).val ∧ (i 1).val < win0_2.index ⟨(i 0).val / 10000, hlt⟩ (1 : Fin 2) * 32 + 32
    omega

/-- After the call the result array is the matrix product of the two input arrays as the call found them. -/
theorem result (c : Dev nD) : (dat0 V c).arrAt 2 cfg0.N = dense (V c main_arg0) (V c main_arg2) :=
  (dat0 V c).arrAt_eq_of_cover 2 (dense (V c main_arg0) (V c main_arg2)) (fun t _ => flushed_eq V c t) covered

end Cert.KernelIdeal.Stage0

end
-- ==== Proof.Stage1.lean ====
/-
  The second pallas_call, at the extended reals: ten grid points, point t taking rows 10000·t … of the [100000, 32]
  array a, the whole [1, 32] bias row and the whole [32, 8] array w, and writing rows 10000·t … of the [100000, 8]
  result. The body adds the bias row to every row of the block, takes the maximum with the literal zero, and
  multiplies by w on the matrix unit into a zero accumulator (the roundings to bf16 are the identity at the extended
  reals): entry (r, c) of the block is Σ_q max (a[10000·t + r, q] + b[0, q]) 0 · w[q, c]. The ten blocks tile the
  result, which ends as `hidden a b w` with b the bias row read as a vector. Stated at ANY contents `V` of the
  buffers when the call is entered.
-/
import proofs.«131457_j35519379537969_1_alg».proof.Proof.Gen.KernelIdeal.Frame
import proofs.«131457_j35519379537969_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)
open Cert.GCN
open scoped BigOperators

variable (V : (c : Dev nD) → (b : Ref sig .tc) → Buf (Elt Ideal) ((c : Thread nD τ).loc b))

/-- The block product's dimension record: [10000, 32] × [32, 8] → [10000, 8], one contracted axis. -/
abbrev D1 : DotDims S10000x32 S32x8 S10000x8 := dot_S10000x32_S32x8_S10000x8_1_0_0_1_n_n

/-! ## The operand indices of the block product -/

theorem lhs_row (i : S10000x8.Idx) (q : D1.contr.Idx) : (D1.lhsIdx i q 0).val = (i 0).val := by
  unfold DotDims.lhsIdx
  rw [dif_neg (show ¬(0 : Fin S10000x32.rank) ∈ D1.lhsBatch by decide), dif_pos (show (0 : Fin S10000x32.rank) ∈ D1.lhsNonContracting by decide)]
  rfl
theorem lhs_col (i : S10000x8.Idx) (q : D1.contr.Idx) : (D1.lhsIdx i q 1).val = (q ⟨0, by decide⟩).val :=
  D1.lhsIdx_val_of_single rfl i q
theorem rhs_row (i : S10000x8.Idx) (q : D1.contr.Idx) : (D1.rhsIdx i q 0).val = (q ⟨0, by decide⟩).val :=
  D1.rhsIdx_val_of_single rfl i q
theorem rhs_col (i : S10000x8.Idx) (q : D1.contr.Idx) : (D1.rhsIdx i q 1).val = (i 1).val := by
  unfold DotDims.rhsIdx
  rw [dif_neg (show ¬(1 : Fin S32x8.rank) ∈ D1.rhsBatch by decide), dif_pos (show (1 : Fin S32x8.rank) ∈ D1.rhsNonContracting by decide)]
  rfl

/-! ## The body's stored value at an index -/

/-- The activation the body feeds the product: the block plus the bias row, against the literal zero, at (r, q). -/
theorem act_ix (x0 : Vec Ideal S10000x32 .f32) (x1 : Vec Ideal S1x32 .f32) (r : Fin 10000) (q : Fin 32) :
    maximumf (addf (shapeCast S10000x32 x0 shapeCasts_S10000x32_S10000x32)
        (broadcastTo S10000x32 (shapeCast S1x32 x1 shapeCasts_S1x32_S1x32) broadcasts_S1x32_S10000x32))
      (broadcast S10000x32 (Scalar.ofBits (F := Ideal) .f32 0x00000000#32)) (ix2 r q)
    = max (x0 (ix2 r q) + x1 (ix2 (0 : Fin 1) q)) (Ideal.ofBits .f32 0x00000000#32) := by
  rw [shapeCast_self, shapeCast_self]
  show max (x0 (ix2 r q) + broadcastTo S10000x32 x1 broadcasts_S1x32_S10000x32 (ix2 r q)) (Ideal.ofBits .f32 0x00000000#32) = _
  rw [broadcastTo_1b_ab_apply]

/-- Entry (r, c) of what the body stores: the sum over q of the activation at (r, q) times the weight block at (q, c). -/
theorem stored_ix (x0 : Vec Ideal S10000x32 .f32) (x1 : Vec Ideal S1x32 .f32) (x2 : Vec Ideal S32x8 .f32) (r : Fin 10000) (c : Fin 8) :
    k1_pay1 x0 x1 x2 (ix2 r c)
      = ∑ q : Fin 32, max (x0 (ix2 r q) + x1 (ix2 (0 : Fin 1) q)) (Ideal.ofBits .f32 0x00000000#32) * x2 (ix2 q c) := by
  unfold k1_pay1
  refine (Ideal.matmul_constant_zero_apply D1 none _ _ (ix2 r c)).trans ?_
  rw [← Equiv.sum_comp (contrEquiv1 D1 32 rfl rfl).symm]
  refine Finset.sum_congr rfl fun q _ => ?_
  have hk := contrEquiv1_symm_val D1 32 rfl rfl q
  have el : D1.lhsIdx (ix2 r c) ((contrEquiv1 D1 32 rfl rfl).symm q) = ix2 r q := funext fun a => Fin.ext (by
    match a with
    | ⟨0, _⟩ => exact lhs_row _ _
    | ⟨1, _⟩ => exact (lhs_col _ _).trans hk)
  have er : D1.rhsIdx (ix2 r c) ((contrEquiv1 D1 32 rfl rfl).symm q) = ix2 q c := funext fun a => Fin.ext (by
    match a with
    | ⟨0, _⟩ => exact (rhs_row _ _).trans hk
    | ⟨1, _⟩ => exact rhs_col _ _)
  show maximumf (addf (shapeCast S10000x32 x0 shapeCasts_S10000x32_S10000x32)
        (broadcastTo S10000x32 (shapeCast S1x32 x1 shapeCasts_S1x32_S1x32) broadcasts_S1x32_S10000x32))
      (broadcast S10000x32 (Scalar.ofBits (F := Ideal) .f32 0x00000000#32)) (D1.lhsIdx (ix2 r c) ((contrEquiv1 D1 32 rfl rfl).symm q))
    * x2 (D1.rhsIdx (ix2 r c) ((contrEquiv1 D1 32 rfl rfl).symm q)) = _
  rw [el, er, act_ix]

/-! ## Where the blocks sit -/

theorem zero_off : (![0, 0] : Fin 2 → Nat) = fun _ => 0 := funext fun a => by fin_cases a <;> rfl

/-- The four index maps over the grid: the row-tiled windows are at block row t, the bias and weight windows at (0, 0). -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of point t's block of a is row 10000·t + r of the array. -/
theorem block_a (c : Dev nD) (t : Fin cfg1.N) (r : Fin 10000) (q : Fin 32) (R : Fin 100000) (hR : R.val = t.val * 10000 + r.val) :
    iblk1 V c 0 t (ix2 r q) = V c main_v43 (ix2 R q) := by
  obtain ⟨e0, e1, e2, e3, e4, e5, e6, e7⟩ := block_index t
  show V c main_v43 (((cfg1.win 0).blk t).view.emb (ix2 r q)) = V c main_v43 (ix2 R q)
  have h : ((cfg1.win 0).blk t).view.emb (ix2 r q) = ix2 R q := funext fun a => Fin.ext (by
    match a with
    | ⟨0, _⟩ => show win1_0.index t (0 : Fin 2) * 10000 + 1 * r.val = R.val; omega
    | ⟨1, _⟩ => show win1_0.index t (1 : Fin 2) * 32 + 1 * q.val = q.val; omega)
  rw [h]

/-- Every point's block of the bias row is the whole row. -/
theorem block_b (c : Dev nD) (t : Fin cfg1.N) (u : Fin 1) (q : Fin 32) :
    iblk1 V c 1 t (ix2 u q) = V c main_v44 (ix2 u q) := by
  obtain ⟨e0, e1, e2, e3, e4, e5, e6, e7⟩ := block_index t
  show V c main_v44 (((cfg1.win 1).blk t).view.emb (ix2 u q)) = V c main_v44 (ix2 u q)
  have h : ((cfg1.win 1).blk t).view.emb (ix2 u q) = ix2 u q := funext fun a => Fin.ext (by
    match a with
    | ⟨0, _⟩ => show win1_1.index t (0 : Fin 2) * 1 + 1 * u.val = u.val; omega
    | ⟨1, _⟩ => show win1_1.index t (1 : Fin 2) * 32 + 1 * q.val = q.val; omega)
  rw [h]

/-- Every point's block of w is the whole array. -/
theorem block_w (c : Dev nD) (t : Fin cfg1.N) (q : Fin 32) (cc : Fin 8) :
    iblk1 V c 2 t (ix2 q cc) = V c main_arg4 (ix2 q cc) := by
  obtain ⟨e0, e1, e2, e3, e4, e5, e6, e7⟩ := block_index t
  show V c main_arg4 (((cfg1.win 2).blk t).view.emb (ix2 q cc)) = V c main_arg4 (ix2 q cc)
  have h : ((cfg1.win 2).blk t).view.emb (ix2 q cc) = ix2 q cc := funext fun a => Fin.ext (by
    match a with
    | ⟨0, _⟩ => show win1_2.index t (0 : Fin 2) * 32 + 1 * q.val = q.val; omega
    | ⟨1, _⟩ => show win1_2.index t (1 : Fin 2) * 8 + 1 * cc.val = cc.val; omega)
  rw [h]

/-! ## What a point writes back, and the array after the call -/

/-- The bias row the call finds, read as a vector. -/
def biasVec (c : Dev nD) : Vct 32 := fun j => V c main_v44 (ix2 (0 : Fin 1) (j 0))

/-- Point t writes back block t of the hidden layer's function of the three arrays. -/
theorem flushed_eq (c : Dev nD) (t : Fin cfg1.N) :
    (dat1 V c).flushed 3 t = ((cfg1.win 3).blk t).view.read (Elt Ideal) (hidden (V c main_v43) (biasVec V c) (V c main_arg4)) := by
  show (cfg1.win 3).cut (grid1.coords t) ((dat1 V c).after 3 t) = _
  rw [after1_3]
  unfold out1_3
  rw [View.canon_unit_zero zero_off]
  simp only [View.ld_unit_zero (S := S10000x32) zero_off, View.ld_unit_zero (S := S1x32) zero_off, View.ld_unit_zero (S := S32x8) zero_off]
  obtain ⟨e0, e1, e2, e3, e4, e5, e6, e7⟩ := block_index t
  have hN : cfg1.N = 10 := N_1
  funext j
  obtain ⟨r, cc, rfl⟩ : ∃ (r : Fin 10000) (cc : Fin 8), j = ix2 r cc := ⟨j 0, j 1, eq_ix2 j⟩
  have hR : t.val * 10000 + r.val < 100000 := by have := t.isLt; have := r.isLt; omega
  show k1_pay1 (iblk1 V c 0 t) (iblk1 V c 1 t) (iblk1 V c 2 t) (ix2 r cc)
    = hidden (V c main_v43) (biasVec V c) (V c main_arg4) (((cfg1.win 3).blk t).view.emb (ix2 r cc))
  have hemb : ((cfg1.win 3).blk t).view.emb (ix2 r cc) = ix2 (⟨t.val * 10000 + r.val, hR⟩ : Fin 100000) cc :=
    funext fun a => Fin.ext (by
      match a with
      | ⟨0, _⟩ => show win1_3.index t (0 : Fin 2) * 10000 + 1 * r.val = t.val * 10000 + r.val; omega
      | ⟨1, _⟩ => show win1_3.index t (1 : Fin 2) * 8 + 1 * cc.val = cc.val; omega)
  rw [hemb, hidden_ix]
  refine (stored_ix (iblk1 V c 0 t) (iblk1 V c 1 t) (iblk1 V c 2 t) r cc).trans (Finset.sum_congr rfl fun q _ => ?_)
  rw [block_a V c t r q ⟨t.val * 10000 + r.val, hR⟩ rfl, block_b V c t 0 q, block_w V c t q cc]
  rfl

/-- An index of the result is in point t's block iff each coordinate is in the block's range on its axis. -/
theorem mem_block (t : Fin cfg1.N) (i : S100000x8.Idx) :
    i ∈ ((cfg1.win 3).blk t).view.set ↔ ∀ a : Fin 2, win1_3.index t a * S10000x8.size a ≤ (i a).val ∧ (i a).val < win1_3.index t a * S10000x8.size a + S10000x8.size a := by
  show i ∈ ((View.whole main_v45).slice (win1_3.rect t)).set ↔ _
  rw [View.set_slice_whole, Rect.mem_set_unit]
  exact Iff.rfl

/-- Row R of the result lies in the block of point R / 10000. -/
theorem covered (i : S100000x8.Idx) : ∃ t : Fin cfg1.N, (cfg1.win 3).flush t = true ∧ i ∈ ((cfg1.win 3).blk t).view.set := by
  have hi0 : (i 0).val < 100000 := (i 0).isLt
  have hi1 : (i 1).val < 8 := (i 1).isLt
  have hN : cfg1.N = 10 := N_1
  have hlt : (i 0).val / 10000 < cfg1.N := by rw [hN]; omega
  obtain ⟨e0, e1, e2, e3, e4, e5, e6, e7⟩ := block_index ⟨(i 0).val / 10000, hlt⟩
  refine ⟨⟨(i 0).val / 10000, hlt⟩, flush1_3 _, ?_⟩
  rw [mem_block]
  intro a
  match a with
  | ⟨0, _⟩ =>
    show win1_3.index ⟨(i 0).val / 10000, hlt⟩ (0 : Fin 2) * 10000 ≤ (i 0).val ∧ (i 0).val < win1_3.index ⟨(i 0).val / 10000, hlt⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, hlt⟩ (1 : Fin 2) * 8 ≤ (i 1).val ∧ (i 1).val < win1_3.index ⟨(i 0).val / 10000, hlt⟩ (1 : Fin 2) * 8 + 8
    omega

/-- After the call the result array is the hidden layer's function of the three input arrays as the call found them. -/
theorem result (c : Dev nD) : (dat1 V c).arrAt 3 cfg1.N = hidden (V c main_v43) (biasVec V c) (V c main_arg4) :=
  (dat1 V c).arrAt_eq_of_cover 3 (hidden (V c main_v43) (biasVec V c) (V c main_arg4)) (fun t _ => flushed_eq V c t) covered

end Cert.KernelIdeal.Stage1

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.Stage2.lean ====
/-
  The third pallas_call, at the extended reals: ten grid points, point t taking rows 10000·t … of the [100000, 8]
  array a and the whole [1, 8] bias row, and writing rows 10000·t … of the [100000, 8] result. The body adds the bias
  row to every row of the block, takes each row's maximum (a lane reduction from −∞), subtracts it, exponentiates,
  sums each row (a lane reduction from 0), takes the logarithm and subtracts it: entry (r, c) of the block is the
  log-softmax of the row o[q] = a[10000·t + r, q] + b[0, q] at c, in the shifted form (o[c] − M) − log Σ_q exp (o[q] − M).
  The ten blocks tile the result, which ends as `logSoftmax a b` with b the bias row read as a vector. Stated at ANY
  contents `V` of the buffers when the call is entered.
-/
import proofs.«131457_j35519379537969_1_alg».proof.Proof.Gen.KernelIdeal.Frame
import proofs.«131457_j35519379537969_1_alg».proof.Proof.Spec
import proofs.«131457_j35519379537969_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)
open Cert.GCN Cert.Lib.Keepdims
open scoped BigOperators

variable (V : (c : Dev nD) → (b : Ref sig .tc) → Buf (Elt Ideal) ((c : Thread nD τ).loc b))

/-! ## The body's intermediate values, named -/

/-- The block plus the bias row broadcast over its rows. -/
def biased (x0 : Vec Ideal S10000x8 .f32) (x1 : Vec Ideal S1x8 .f32) : FVec Ideal S10000x8 .f32 :=
  addf (shapeCast S10000x8 x0 shapeCasts_S10000x8_S10000x8) (broadcastTo S10000x8 (shapeCast S1x8 x1 shapeCasts_S1x8_S1x8) broadcasts_S1x8_S10000x8)

/-- Each row's maximum: the lane reduction from the literal −∞. -/
def rowMaxV (o : FVec Ideal S10000x8 .f32) : FVec Ideal S10000 .f32 :=
  multiReduction .maximumf [1] S10000 o 0xFF800000#32 reduces_S10000x8_S10000 (.inl rfl) rfl

/-- Each entry minus its row's maximum (the maximum kept as a column and broadcast back). -/
def shifted (o : FVec Ideal S10000x8 .f32) : FVec Ideal S10000x8 .f32 :=
  subf o (broadcastTo S10000x8 (shapeCast S10000x1 (rowMaxV o) shapeCasts_S10000_S10000x1) broadcasts_S10000x1_S10000x8)

/-- The logarithm of each row's sum of exponentials, as a column. -/
def logSum (z : FVec Ideal S10000x8 .f32) : FVec Ideal S10000x1 .f32 :=
  log (shapeCast S10000x1 (multiReduction .add [1] S10000 (exp z) 0x00000000#32 reduces_S10000x8_S10000 (.inl rfl) rfl) shapeCasts_S10000_S10000x1)

/-- The body's stored value is the shifted block minus the column of log-sums broadcast back. -/
theorem stored_eq (x0 : Vec Ideal S10000x8 .f32) (x1 : Vec Ideal S1x8 .f32) :
    k2_pay1 x0 x1 = subf (shifted (biased x0 x1)) (broadcastTo S10000x8 (logSum (shifted (biased x0 x1))) broadcasts_S10000x1_S10000x8) := rfl

/-! ## Each of them at an index -/

theorem biased_ix (x0 : Vec Ideal S10000x8 .f32) (x1 : Vec Ideal S1x8 .f32) (r : Fin 10000) (q : Fin 8) :
    biased x0 x1 (ix2 r q) = x0 (ix2 r q) + x1 (ix2 (0 : Fin 1) q) := by
  unfold biased
  rw [shapeCast_self, shapeCast_self]
  show x0 (ix2 r q) + broadcastTo S10000x8 x1 broadcasts_S1x8_S10000x8 (ix2 r q) = _
  rw [broadcastTo_1b_ab_apply]

theorem rowMaxV_ix (o : FVec Ideal S10000x8 .f32) (r : Fin 10000) :
    rowMaxV o (ix1 r) = rowMax (fun q : Fin 8 => o (ix2 r q)) := by
  unfold rowMaxV rowMax
  refine (Ideal.multiReduction_maximumf_single o 0xFF800000#32 reduces_S10000x8_S10000 (.inl rfl) rfl (ix1 r)).trans ?_
  refine congrArg (fun f : Fin 8 → EReal => (Finset.univ : Finset (Fin 8)).fold max (Ideal.ofBits .f32 0xFF800000#32) f) ?_
  funext q
  exact congrArg o (funext fun a => Fin.ext (by
    match a with
    | ⟨0, _⟩ => rfl
    | ⟨1, _⟩ => rfl))

theorem shifted_ix (o : FVec Ideal S10000x8 .f32) (r : Fin 10000) (q : Fin 8) :
    shifted o (ix2 r q) = o (ix2 r q) - rowMax (fun q' : Fin 8 => o (ix2 r q')) := by
  unfold shifted
  show o (ix2 r q) - broadcastTo S10000x8 (shapeCast S10000x1 (rowMaxV o) shapeCasts_S10000_S10000x1) broadcasts_S10000x1_S10000x8 (ix2 r q) = _
  rw [broadcastTo_a1_ab_apply, shapeCast_a_a1_apply, rowMaxV_ix]

theorem logSum_ix (z : FVec Ideal S10000x8 .f32) (r : Fin 10000) :
    logSum z (ix2 r (0 : Fin 1)) = Ideal.log (∑ q : Fin 8, Ideal.exp (z (ix2 r q))) := by
  unfold logSum
  show Ideal.log (shapeCast S10000x1 (multiReduction .add [1] S10000 (exp z) 0x00000000#32 reduces_S10000x8_S10000 (.inl rfl) rfl) shapeCasts_S10000_S10000x1 (ix2 r (0 : Fin 1))) = _
  rw [shapeCast_a_a1_apply]
  exact congrArg Ideal.log (rowSum_apply (exp z) 0x00000000#32 reduces_S10000x8_S10000 (.inl rfl) rfl r)

/-- Entry (r, c) of what the body stores is the log-softmax of the biased row r at c. -/
theorem stored_ix (x0 : Vec Ideal S10000x8 .f32) (x1 : Vec Ideal S1x8 .f32) (r : Fin 10000) (c : Fin 8) :
    k2_pay1 x0 x1 (ix2 r c) = lsmRow (fun q : Fin 8 => x0 (ix2 r q) + x1 (ix2 (0 : Fin 1) q)) c := by
  rw [stored_eq]
  show shifted (biased x0 x1) (ix2 r c) - broadcastTo S10000x8 (logSum (shifted (biased x0 x1))) broadcasts_S10000x1_S10000x8 (ix2 r c) = _
  rw [broadcastTo_a1_ab_apply, logSum_ix]
  simp only [shifted_ix, biased_ix]
  rfl

/-! ## Where the blocks sit -/

theorem zero_off : (![0, 0] : Fin 2 → Nat) = fun _ => 0 := funext fun a => by fin_cases a <;> rfl

/-- The three index maps over the grid: the row-tiled windows are at block row t, the bias window at (0, 0). -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row r of point t's block of a is row 10000·t + r of the array. -/
theorem block_a (c : Dev nD) (t : Fin cfg2.N) (r : Fin 10000) (q : Fin 8) (R : Fin 100000) (hR : R.val = t.val * 10000 + r.val) :
    iblk2 V c 0 t (ix2 r q) = V c main_v58 (ix2 R q) := by
  obtain ⟨e0, e1, e2, e3, e4, e5⟩ := block_index t
  show V c main_v58 (((cfg2.win 0).blk t).view.emb (ix2 r q)) = V c main_v58 (ix2 R q)
  have h : ((cfg2.win 0).blk t).view.emb (ix2 r q) = ix2 R q := funext fun a => Fin.ext (by
    match a with
    | ⟨0, _⟩ => show win2_0.index t (0 : Fin 2) * 10000 + 1 * r.val = R.val; omega
    | ⟨1, _⟩ => show win2_0.index t (1 : Fin 2) * 8 + 1 * q.val = q.val; omega)
  rw [h]

/-- Every point's block of the bias row is the whole row. -/
theorem block_b (c : Dev nD) (t : Fin cfg2.N) (u : Fin 1) (q : Fin 8) :
    iblk2 V c 1 t (ix2 u q) = V c main_v59 (ix2 u q) := by
  obtain ⟨e0, e1, e2, e3, e4, e5⟩ := block_index t
  show V c main_v59 (((cfg2.win 1).blk t).view.emb (ix2 u q)) = V c main_v59 (ix2 u q)
  have h : ((cfg2.win 1).blk t).view.emb (ix2 u q) = ix2 u q := funext fun a => Fin.ext (by
    match a with
    | ⟨0, _⟩ => show win2_1.index t (0 : Fin 2) * 1 + 1 * u.val = u.val; omega
    | ⟨1, _⟩ => show win2_1.index t (1 : Fin 2) * 8 + 1 * q.val = q.val; omega)
  rw [h]

/-! ## What a point writes back, and the array after the call -/

/-- The bias row the call finds, read as a vector. -/
def biasVec (c : Dev nD) : Vct 8 := fun j => V c main_v59 (ix2 (0 : Fin 1) (j 0))

/-- Point t writes back block t of the output layer's function of the two arrays. -/
theorem flushed_eq (c : Dev nD) (t : Fin cfg2.N) :
    (dat2 V c).flushed 2 t = ((cfg2.win 2).blk t).view.read (Elt Ideal) (logSoftmax (V c main_v58) (biasVec V c)) := by
  show (cfg2.win 2).cut (grid2.coords t) ((dat2 V c).after 2 t) = _
  rw [after2_2]
  unfold out2_2
  rw [View.canon_unit_zero zero_off]
  simp only [View.ld_unit_zero (S := S10000x8) zero_off, View.ld_unit_zero (S := S1x8) zero_off]
  obtain ⟨e0, e1, e2, e3, e4, e5⟩ := block_index t
  have hN : cfg2.N = 10 := N_2
  funext j
  obtain ⟨r, cc, rfl⟩ : ∃ (r : Fin 10000) (cc : Fin 8), j = ix2 r cc := ⟨j 0, j 1, eq_ix2 j⟩
  have hR : t.val * 10000 + r.val < 100000 := by have := t.isLt; have := r.isLt; omega
  show k2_pay1 (iblk2 V c 0 t) (iblk2 V c 1 t) (ix2 r cc)
    = logSoftmax (V c main_v58) (biasVec V c) (((cfg2.win 2).blk t).view.emb (ix2 r cc))
  have hemb : ((cfg2.win 2).blk t).view.emb (ix2 r cc) = ix2 (⟨t.val * 10000 + r.val, hR⟩ : Fin 100000) cc :=
    funext fun a => Fin.ext (by
      match a with
      | ⟨0, _⟩ => show win2_2.index t (0 : Fin 2) * 10000 + 1 * r.val = t.val * 10000 + r.val; omega
      | ⟨1, _⟩ => show win2_2.index t (1 : Fin 2) * 8 + 1 * cc.val = cc.val; omega)
  rw [hemb, logSoftmax_ix]
  refine (stored_ix (iblk2 V c 0 t) (iblk2 V c 1 t) r cc).trans ?_
  refine congrArg (fun o : Fin 8 → EReal => lsmRow o cc) (funext fun q => ?_)
  rw [block_a V c t r q ⟨t.val * 10000 + r.val, hR⟩ rfl, block_b V c t 0 q]
  rfl

/-- An index of the result is in point t's block iff each coordinate is in the block's range on its axis. -/
theorem mem_block (t : Fin cfg2.N) (i : S100000x8.Idx) :
    i ∈ ((cfg2.win 2).blk t).view.set ↔ ∀ a : Fin 2, win2_2.index t a * S10000x8.size a ≤ (i a).val ∧ (i a).val < win2_2.index t a * S10000x8.size a + S10000x8.size a := by
  show i ∈ ((View.whole main_v60).slice (win2_2.rect t)).set ↔ _
  rw [View.set_slice_whole, Rect.mem_set_unit]
  exact Iff.rfl

/-- Row R of the result lies in the block of point R / 10000. -/
theorem covered (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  have hN : cfg2.N = 10 := N_2
  have hlt : (i 0).val / 10000 < cfg2.N := by rw [hN]; omega
  obtain ⟨e0, e1, e2, e3, e4, e5⟩ := block_index ⟨(i 0).val / 10000, hlt⟩
  refine ⟨⟨(i 0).val / 10000, hlt⟩, flush2_2 _, ?_⟩
  rw [mem_block]
  intro a
  match a with
  | ⟨0, _⟩ =>
    show win2_2.index ⟨(i 0).val / 10000, hlt⟩ (0 : Fin 2) * 10000 ≤ (i 0).val ∧ (i 0).val < win2_2.index ⟨(i 0).val / 10000, hlt⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, hlt⟩ (1 : Fin 2) * 8 ≤ (i 1).val ∧ (i 1).val < win2_2.index ⟨(i 0).val / 10000, hlt⟩ (1 : Fin 2) * 8 + 8
    omega

/-- After the call the result array is the output layer's function of the two input arrays as the call found them. -/
theorem result (c : Dev nD) : (dat2 V c).arrAt 2 cfg2.N = logSoftmax (V c main_v58) (biasVec V c) :=
  (dat2 V c).arrAt_eq_of_cover 2 (logSoftmax (V c main_v58) (biasVec V c)) (fun t _ => flushed_eq V c t) covered

end Cert.KernelIdeal.Stage2

end
-- ==== Proof.KernelValue.lean ====
/-
  The idealized kernel program's result buffer at the last segment boundary, as ONE function of the six argument
  arrays. The buffer contents are followed through @main's segments: the three opening host stretches compute the
  edges' sources, targets and norms from the edge array and touch no argument; the first call leaves x · w₁ in its
  result array (Stage0) and everything else as it was; the next stretch aggregates that array over the edges and casts
  the first bias to a row; the second call leaves the hidden layer's function of the aggregate, the bias and w₂ (Stage1);
  the next stretch aggregates again and casts the second bias; the third call leaves the biased log-softmax (Stage2).
  A buffer that a segment does not write is read through it unchanged.
-/
import proofs.«131457_j35519379537969_1_alg».proof.Proof.Gen.KernelIdeal.Frame
import proofs.«131457_j35519379537969_1_alg».proof.Proof.Spec
import proofs.«131457_j35519379537969_1_alg».proof.Proof.HostTerms
import proofs.«131457_j35519379537969_1_alg».proof.Proof.Stage0
import proofs.«131457_j35519379537969_1_alg».proof.Proof.Stage1
import proofs.«131457_j35519379537969_1_alg».proof.Proof.Stage2
import Idealize.ShloMosaic.Lib.ValueLayout
import Idealize.ShloMosaic.Lib.StableHlo.Run

set_option maxRecDepth 16384

noncomputable section

namespace Cert.KernelIdeal.FoldValue

open Cert.KernelIdeal Cert.KernelIdeal.Gen Cert.KernelIdeal.HostTerms Cert.GCN
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-! ## The three opening stretches, over ANY contents they start from -/

theorem s0_src (U : Valuation τ sig (Elt Ideal)) : StableHlo.after hostOps0 U (Proc.devRef .tc main_v3) = srcOf (U (Proc.devRef .tc main_arg1)) := by
  simp only [hostOps0]
  after_results
  rfl
theorem s0_dst (U : Valuation τ sig (Elt Ideal)) : StableHlo.after hostOps0 U (Proc.devRef .tc main_v6) = dstOf (U (Proc.devRef .tc main_arg1)) := by
  simp only [hostOps0]
  after_results
  rfl
theorem s0_pos (U : Valuation τ sig (Elt Ideal)) : StableHlo.after hostOps0 U (Proc.devRef .tc main_v12)
    = cmpf (F := Ideal) .ogt (degrees (F := Ideal) (dstOf (U (Proc.devRef .tc main_arg1)))) (broadcastInDim S100000 ![] bcast_S_S100000 (constant S_ .f32 0x00000000#32)) := by
  simp only [hostOps0]
  after_results
  rfl
theorem s0_rsqrt (U : Valuation τ sig (Elt Ideal)) : StableHlo.after hostOps0 U (Proc.devRef .tc main_v13) = Host.rsqrt (F := Ideal) (φ := .f32) (degrees (F := Ideal) (dstOf (U (Proc.devRef .tc main_arg1)))) := by
  simp only [hostOps0]
  after_results
  rfl
theorem s0_zero (U : Valuation τ sig (Elt Ideal)) : StableHlo.after hostOps0 U (Proc.devRef .tc main_cst_2) = constant (F := Ideal) S_ .f32 0x00000000#32 := by
  simp only [hostOps0]
  after_results
theorem s1_where (U : Valuation τ sig (Elt Ideal)) : StableHlo.after hostOps0_1 U (Proc.devRef .tc main_v14)
    = whereSel (F := Ideal) (U (Proc.devRef .tc main_v12)) (U (Proc.devRef .tc main_v13)) (U (Proc.devRef .tc main_cst_2)) := by
  simp only [hostOps0_1]
  after_results
  rfl
theorem s1_src (U : Valuation τ sig (Elt Ideal)) : StableHlo.after hostOps0_1 U (Proc.devRef .tc main_v3) = U (Proc.devRef .tc main_v3) := by
  simp only [hostOps0_1]
  after_results
theorem s1_dst (U : Valuation τ sig (Elt Ideal)) : StableHlo.after hostOps0_1 U (Proc.devRef .tc main_v6) = U (Proc.devRef .tc main_v6) := by
  simp only [hostOps0_1]
  after_results
theorem s2_src (U : Valuation τ sig (Elt Ideal)) : StableHlo.after hostOps0_2 U (Proc.devRef .tc main_v3) = U (Proc.devRef .tc main_v3) := by
  simp only [hostOps0_2]
  after_results
theorem s2_dst (U : Valuation τ sig (Elt Ideal)) : StableHlo.after hostOps0_2 U (Proc.devRef .tc main_v6) = U (Proc.devRef .tc main_v6) := by
  simp only [hostOps0_2]
  after_results
set_option maxHeartbeats 8000000 in
theorem s2_norm (U : Valuation τ sig (Elt Ideal)) : StableHlo.after hostOps0_2 U (Proc.devRef .tc main_v29)
    = normFrom (F := Ideal) (U (Proc.devRef .tc main_v14)) (U (Proc.devRef .tc main_v3)) (U (Proc.devRef .tc main_v6)) := by
  simp only [hostOps0_2]
  after_results
  rfl

/-! ## Entry of the first call: sources, targets, norms; the arguments untouched -/

theorem W3_src (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  rw [s2_src, s1_src, s0_src]

theorem W3_dst (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  rw [s2_dst, s1_dst, s0_dst]

theorem W3_norm (c : Dev nD) : W3 m ρ c (Proc.devRef .tc main_v29) = normOf (srcOf (m ((c : Thread nD τ).loc main_arg1))) (dstOf (m ((c : Thread nD τ).loc main_arg1))) := by
  show StableHlo.after hostOps0_2 (StableHlo.after hostOps0_1 (StableHlo.after hostOps0 (W0 m ρ c))) (Proc.devRef .tc main_v29) = _
  rw [s2_norm, s1_where, s1_src, s1_dst, s0_pos, s0_rsqrt, s0_zero, s0_src, s0_dst]
  rfl

theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results

theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results

theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  simp only [hostOps0_2, hostOps0_1, hostOps0]
  after_results

theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  simp only [hostOps0_2, hostOps0_1, hostOps0]
  after_results

theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  after_results

/-! ## Exit of the first call -/

theorem W4_prod (c : Dev nD) : W4 m ρ c (Proc.devRef .tc main_v30) = dense (m ((c : Thread nD τ).loc main_arg0)) (m ((c : Thread nD τ).loc main_arg2)) := by
  refine (W4_arr m ρ c 2).trans ?_
  refine (Stage0.result (V3 m ρ) c).trans ?_
  show dense (W3 m ρ c (Proc.devRef .tc main_arg0)) (W3 m ρ c (Proc.devRef .tc main_arg2)) = _
  rw [W3_arg0, W3_arg2]

theorem W4_src (c : Dev nD) : W4 m ρ c (Proc.devRef .tc main_v3) = srcOf (m ((c : Thread nD τ).loc main_arg1)) :=
  (W4_of_ne m ρ c main_v3 (by decide)).trans (W3_src m ρ c)
theorem W4_dst (c : Dev nD) : W4 m ρ c (Proc.devRef .tc main_v6) = dstOf (m ((c : Thread nD τ).loc main_arg1)) :=
  (W4_of_ne m ρ c main_v6 (by decide)).trans (W3_dst m ρ c)
theorem W4_norm (c : Dev nD) : W4 m ρ c (Proc.devRef .tc main_v29) = normOf (srcOf (m ((c : Thread nD τ).loc main_arg1))) (dstOf (m ((c : Thread nD τ).loc main_arg1))) :=
  (W4_of_ne m ρ c main_v29 (by decide)).trans (W3_norm m ρ c)
theorem W4_arg3 (c : Dev nD) : W4 m ρ c (Proc.devRef .tc main_arg3) = (m ((c : Thread nD τ).loc main_arg3)) :=
  (W4_of_ne m ρ c main_arg3 (by decide)).trans (W3_arg3 m ρ c)
theorem W4_arg4 (c : Dev nD) : W4 m ρ c (Proc.devRef .tc main_arg4) = (m ((c : Thread nD τ).loc main_arg4)) :=
  (W4_of_ne m ρ c main_arg4 (by decide)).trans (W3_arg4 m ρ c)
theorem W4_arg5 (c : Dev nD) : W4 m ρ c (Proc.devRef .tc main_arg5) = (m ((c : Thread nD τ).loc main_arg5)) :=
  (W4_of_ne m ρ c main_arg5 (by decide)).trans (W3_arg5 m ρ c)

/-! ## Entry of the second call -/

set_option maxHeartbeats 8000000 in
theorem W5_agg (c : Dev nD) : W5 m ρ c (Proc.devRef .tc main_v43)
    = aggregate32 (dense (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1)))) := by
  have h : W5 m ρ c (Proc.devRef .tc main_v43) = aggregate32 (W4 m ρ c (Proc.devRef .tc main_v30)) (W4 m ρ c (Proc.devRef .tc main_v3)) (W4 m ρ c (Proc.devRef .tc main_v6)) (W4 m ρ c (Proc.devRef .tc main_v29)) := by
    show StableHlo.after hostOps1 (W4 m ρ c) (Proc.devRef .tc main_v43) = _
    simp only [hostOps1]
    after_results
    rfl
  rw [h, W4_prod, W4_src, W4_dst, W4_norm]

theorem W5_bias (c : Dev nD) : W5 m ρ c (Proc.devRef .tc main_v44) = shapeCast S1x32 (m ((c : Thread nD τ).loc main_arg3)) shapeCasts_S32_S1x32 := by
  have h : W5 m ρ c (Proc.devRef .tc main_v44) = shapeCast S1x32 (W4 m ρ c (Proc.devRef .tc main_arg3)) shapeCasts_S32_S1x32 := by
    show StableHlo.after hostOps1 (W4 m ρ c) (Proc.devRef .tc main_v44) = _
    simp only [hostOps1]
    after_results
    rfl
  rw [h, W4_arg3]

theorem W5_src (c : Dev nD) : W5 m ρ c (Proc.devRef .tc main_v3) = W4 m ρ c (Proc.devRef .tc main_v3) := by
  show StableHlo.after hostOps1 (W4 m ρ c) (Proc.devRef .tc main_v3) = _
  simp only [hostOps1]
  after_results

theorem W5_dst (c : Dev nD) : W5 m ρ c (Proc.devRef .tc main_v6) = W4 m ρ c (Proc.devRef .tc main_v6) := by
  show StableHlo.after hostOps1 (W4 m ρ c) (Proc.devRef .tc main_v6) = _
  simp only [hostOps1]
  after_results

theorem W5_norm (c : Dev nD) : W5 m ρ c (Proc.devRef .tc main_v29) = W4 m ρ c (Proc.devRef .tc main_v29) := by
  show StableHlo.after hostOps1 (W4 m ρ c) (Proc.devRef .tc main_v29) = _
  simp only [hostOps1]
  after_results

theorem W5_arg4 (c : Dev nD) : W5 m ρ c (Proc.devRef .tc main_arg4) = W4 m ρ c (Proc.devRef .tc main_arg4) := by
  show StableHlo.after hostOps1 (W4 m ρ c) (Proc.devRef .tc main_arg4) = _
  simp only [hostOps1]
  after_results

theorem W5_arg5 (c : Dev nD) : W5 m ρ c (Proc.devRef .tc main_arg5) = W4 m ρ c (Proc.devRef .tc main_arg5) := by
  show StableHlo.after hostOps1 (W4 m ρ c) (Proc.devRef .tc main_arg5) = _
  simp only [hostOps1]
  after_results

theorem bias1 (c : Dev nD) : Stage1.biasVec (V5 m ρ) c = (m ((c : Thread nD τ).loc main_arg3)) := by
  funext j
  obtain ⟨q, rfl⟩ : ∃ q : Fin 32, j = ix1 q := ⟨j 0, eq_ix1 j⟩
  show W5 m ρ c (Proc.devRef .tc main_v44) (ix2 (0 : Fin 1) q) = _
  rw [W5_bias]
  exact shapeCast_a_1a_apply _ _ 0 q

/-! ## Exit of the second call -/

theorem W6_hidden (c : Dev nD) : W6 m ρ c (Proc.devRef .tc main_v45)
    = hidden (aggregate32 (dense (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (m ((c : Thread nD τ).loc main_arg3)) (m ((c : Thread nD τ).loc main_arg4)) := by
  refine (W6_arr m ρ c 3).trans ?_
  refine (Stage1.result (V5 m ρ) c).trans ?_
  show hidden (W5 m ρ c (Proc.devRef .tc main_v43)) (Stage1.biasVec (V5 m ρ) c) (W5 m ρ c (Proc.devRef .tc main_arg4)) = _
  rw [W5_agg, bias1, W5_arg4, W4_arg4]

theorem W6_src (c : Dev nD) : W6 m ρ c (Proc.devRef .tc main_v3) = srcOf (m ((c : Thread nD τ).loc main_arg1)) :=
  (W6_of_ne m ρ c main_v3 (by decide)).trans ((W5_src m ρ c).trans (W4_src m ρ c))
theorem W6_dst (c : Dev nD) : W6 m ρ c (Proc.devRef .tc main_v6) = dstOf (m ((c : Thread nD τ).loc main_arg1)) :=
  (W6_of_ne m ρ c main_v6 (by decide)).trans ((W5_dst m ρ c).trans (W4_dst m ρ c))
theorem W6_norm (c : Dev nD) : W6 m ρ c (Proc.devRef .tc main_v29) = normOf (srcOf (m ((c : Thread nD τ).loc main_arg1))) (dstOf (m ((c : Thread nD τ).loc main_arg1))) :=
  (W6_of_ne m ρ c main_v29 (by decide)).trans ((W5_norm m ρ c).trans (W4_norm m ρ c))
theorem W6_arg5 (c : Dev nD) : W6 m ρ c (Proc.devRef .tc main_arg5) = (m ((c : Thread nD τ).loc main_arg5)) :=
  (W6_of_ne m ρ c main_arg5 (by decide)).trans ((W5_arg5 m ρ c).trans (W4_arg5 m ρ c))

/-! ## Entry of the third call -/

set_option maxHeartbeats 8000000 in
theorem W7_agg (c : Dev nD) : W7 m ρ c (Proc.devRef .tc main_v58)
    = aggregate8 (hidden (aggregate32 (dense (m ((c : Thread nD τ).loc main_arg0)) (m ((c : Thread nD τ).loc main_arg2))) (srcOf (m ((c : Thread nD τ).loc main_arg1))) (dstOf (m ((c : Thread nD τ).loc main_arg1))) (normOf (srcOf (m ((c : Thread nD τ).loc main_arg1))) (dstOf (m ((c : Thread nD τ).loc main_arg1))))) (m ((c : Thread nD τ).loc main_arg3)) (m ((c : Thread nD τ).loc main_arg4)))
        (srcOf (m ((c : Thread nD τ).loc main_arg1))) (dstOf (m ((c : Thread nD τ).loc main_arg1))) (normOf (srcOf (m ((c : Thread nD τ).loc main_arg1))) (dstOf (m ((c : Thread nD τ).loc main_arg1)))) := by
  have h : W7 m ρ c (Proc.devRef .tc main_v58) = aggregate8 (W6 m ρ c (Proc.devRef .tc main_v45)) (W6 m ρ c (Proc.devRef .tc main_v3)) (W6 m ρ c (Proc.devRef .tc main_v6)) (W6 m ρ c (Proc.devRef .tc main_v29)) := by
    show StableHlo.after hostOps2 (W6 m ρ c) (Proc.devRef .tc main_v58) = _
    simp only [hostOps2]
    after_results
    rfl
  rw [h, W6_hidden, W6_src, W6_dst, W6_norm]

theorem W7_bias (c : Dev nD) : W7 m ρ c (Proc.devRef .tc main_v59) = shapeCast S1x8 (m ((c : Thread nD τ).loc main_arg5)) shapeCasts_S8_S1x8 := by
  have h : W7 m ρ c (Proc.devRef .tc main_v59) = shapeCast S1x8 (W6 m ρ c (Proc.devRef .tc main_arg5)) shapeCasts_S8_S1x8 := by
    show StableHlo.after hostOps2 (W6 m ρ c) (Proc.devRef .tc main_v59) = _
    simp only [hostOps2]
    after_results
    rfl
  rw [h, W6_arg5]

theorem bias2 (c : Dev nD) : Stage2.biasVec (V7 m ρ) c = (m ((c : Thread nD τ).loc main_arg5)) := by
  funext j
  obtain ⟨q, rfl⟩ : ∃ q : Fin 8, j = ix1 q := ⟨j 0, eq_ix1 j⟩
  show W7 m ρ c (Proc.devRef .tc main_v59) (ix2 (0 : Fin 1) q) = _
  rw [W7_bias]
  exact shapeCast_a_1a_apply _ _ 0 q

/-! ## Exit of the third call: the result -/

/-- At the last boundary the result buffer holds the network's function of the six arguments as launched. -/
theorem W8_result (c : Dev nD) : W8 m ρ c (Proc.devRef .tc main_v60)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 2).trans ?_
  refine (Stage2.result (V7 m ρ) c).trans ?_
  show logSoftmax (W7 m ρ c (Proc.devRef .tc main_v58)) (Stage2.biasVec (V7 m ρ) c) = _
  rw [W7_agg, bias2]
  rfl

end Cert.KernelIdeal.FoldValue

end
-- ==== Proof.RefLayers.lean ====
/-
  The reference program's two matrix-product stages as they are written on the host, equal to the specification's
  functions. A product is the host's general dot product with one contracted axis: a plain sum over that axis. A bias
  vector reaches its matrix by two broadcasts ([k] → [1, k] → [n, k]): entry (r, q) reads b[q]. The positive part is the
  maximum with a splat of the literal zero. All over ANY operand arrays.
-/
import proofs.«131457_j35519379537969_1_alg».proof.Proof.Gen.ReferenceIdeal
import proofs.«131457_j35519379537969_1_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.Layers

open Cert.ReferenceIdeal Idealize.ShloMosaic Idealize.ShloMosaic.ValueIdx Cert.GCN
open Cert.ReferenceIdeal.Facts₀ Cert.ReferenceIdeal.Facts
open scoped BigOperators

/-! ## Broadcasts read at an index -/

/-- A bias vector [32] broadcast to a row and then over 100000 rows reads, at (r, q), the vector's entry q. -/
theorem bias32_ix (b : FVec Ideal S32 .f32) (r : Fin 100000) (q : Fin 32) :
    broadcastInDim S100000x32 ![0, 1] bcast_S1x32_S100000x32_0_1 (broadcastInDim S1x32 ![1] bcast_S32_S1x32_1 b) (ix2 r q) = b (ix1 q) := by
  refine (broadcastInDim_apply _ bcast_S1x32_S100000x32_0_1 _ (ix2 r q) (ix2 (0 : Fin 1) q) (fun a => ?_)).trans ?_
  · match a with
    | ⟨0, _⟩ => show 0 = if (1 : Nat) = 1 then 0 else r.val; rw [if_pos rfl]
    | ⟨1, _⟩ => show q.val = if (32 : Nat) = 1 then 0 else q.val; rw [if_neg (by decide)]
  · exact broadcastInDim_apply _ bcast_S32_S1x32_1 b (ix2 (0 : Fin 1) q) (ix1 q) (fun a => match a with
      | ⟨0, _⟩ => by show q.val = if (32 : Nat) = 1 then 0 else q.val; rw [if_neg (by decide)])

/-! ## The first product -/

abbrev E0 : DotDims S100000x128 S128x32 S100000x32 := dot_S100000x128_S128x32_S100000x32_1_0_0_1_n_n

theorem e0_lhs_row (i : S100000x32.Idx) (q : E0.contr.Idx) : (E0.lhsIdx i q 0).val = (i 0).val := by
  unfold DotDims.lhsIdx
  rw [dif_neg (show ¬(0 : Fin S100000x128.rank) ∈ E0.lhsBatch by decide), dif_pos (show (0 : Fin S100000x128.rank) ∈ E0.lhsNonContracting by decide)]
  rfl
theorem e0_rhs_col (i : S100000x32.Idx) (q : E0.contr.Idx) : (E0.rhsIdx i q 1).val = (i 1).val := by
  unfold DotDims.rhsIdx
  rw [dif_neg (show ¬(1 : Fin S128x32.rank) ∈ E0.rhsBatch by decide), dif_pos (show (1 : Fin S128x32.rank) ∈ E0.rhsNonContracting by decide)]
  rfl

/-- The host's x · w₁ is the matrix product. -/
theorem product_eq (x : FVec Ideal S100000x128 .f32) (w : FVec Ideal S128x32 .f32) :
    Host.dotGeneral E0 none x w = dense x w := by
  funext i
  obtain ⟨r, c, rfl⟩ : ∃ (r : Fin 100000) (c : Fin 32), i = ix2 r c := ⟨i 0, i 1, eq_ix2 i⟩
  rw [dense_ix]
  simp only [Host.dotGeneral]
  rw [Ideal.dotGeneral_apply, ← Equiv.sum_comp (contrEquiv1 E0 128 rfl rfl).symm]
  refine Finset.sum_congr rfl fun q _ => ?_
  have hk := contrEquiv1_symm_val E0 128 rfl rfl q
  have el : E0.lhsIdx (ix2 r c) ((contrEquiv1 E0 128 rfl rfl).symm q) = ix2 r q := funext fun a => Fin.ext (by
    match a with
    | ⟨0, _⟩ => exact e0_lhs_row _ _
    | ⟨1, _⟩ => exact (E0.lhsIdx_val_of_single rfl _ _).trans hk)
  have er : E0.rhsIdx (ix2 r c) ((contrEquiv1 E0 128 rfl rfl).symm q) = ix2 q c := funext fun a => Fin.ext (by
    match a with
    | ⟨0, _⟩ => exact (E0.rhsIdx_val_of_single rfl _ _).trans hk
    | ⟨1, _⟩ => exact e0_rhs_col _ _)
  rw [el, er]

/-! ## The hidden layer -/

abbrev E1 : DotDims S100000x32 S32x8 S100000x8 := dot_S100000x32_S32x8_S100000x8_1_0_0_1_n_n

theorem e1_lhs_row (i : S100000x8.Idx) (q : E1.contr.Idx) : (E1.lhsIdx i q 0).val = (i 0).val := by
  unfold DotDims.lhsIdx
  rw [dif_neg (show ¬(0 : Fin S100000x32.rank) ∈ E1.lhsBatch by decide), dif_pos (show (0 : Fin S100000x32.rank) ∈ E1.lhsNonContracting by decide)]
  rfl
theorem e1_rhs_col (i : S100000x8.Idx) (q : E1.contr.Idx) : (E1.rhsIdx i q 1).val = (i 1).val := by
  unfold DotDims.rhsIdx
  rw [dif_neg (show ¬(1 : Fin S32x8.rank) ∈ E1.rhsBatch by decide), dif_pos (show (1 : Fin S32x8.rank) ∈ E1.rhsNonContracting by decide)]
  rfl

/-- The host's activation: the aggregate plus the broadcast bias, against a splat of the literal zero. -/
def activation (a : FVec Ideal S100000x32 .f32) (b : FVec Ideal S32 .f32) : FVec Ideal S100000x32 .f32 :=
  maximumf (addf a (broadcastInDim S100000x32 ![0, 1] bcast_S1x32_S100000x32_0_1 (broadcastInDim S1x32 ![1] bcast_S32_S1x32_1 b)))
    (broadcastInDim S100000x32 ![] bcast_S_S100000x32 (constant S_ .f32 0x00000000#32))

theorem activation_ix (a : FVec Ideal S100000x32 .f32) (b : FVec Ideal S32 .f32) (r : Fin 100000) (q : Fin 32) :
    activation a b (ix2 r q) = max (a (ix2 r q) + b (ix1 q)) (Ideal.ofBits .f32 0x00000000#32) := by
  unfold activation
  show max (a (ix2 r q) + broadcastInDim S100000x32 ![0, 1] bcast_S1x32_S100000x32_0_1 (broadcastInDim S1x32 ![1] bcast_S32_S1x32_1 b) (ix2 r q))
      (broadcastInDim S100000x32 ![] bcast_S_S100000x32 (constant (F := Ideal) S_ .f32 0x00000000#32) (ix2 r q)) = _
  rw [bias32_ix, broadcastInDim_apply _ bcast_S_S100000x32 _ (ix2 r q) ix0 (fun a => a.elim0)]
  rfl

/-- The host's relu(a + b) · w₂ is the hidden layer's function. -/
theorem hidden_eq (a : FVec Ideal S100000x32 .f32) (b : FVec Ideal S32 .f32) (w : FVec Ideal S32x8 .f32) :
    Host.dotGeneral E1 none (activation a b) w = hidden a b w := by
  funext i
  obtain ⟨r, c, rfl⟩ : ∃ (r : Fin 100000) (c : Fin 8), i = ix2 r c := ⟨i 0, i 1, eq_ix2 i⟩
  rw [hidden_ix]
  simp only [Host.dotGeneral]
  rw [Ideal.dotGeneral_apply, ← Equiv.sum_comp (contrEquiv1 E1 32 rfl rfl).symm]
  refine Finset.sum_congr rfl fun q _ => ?_
  have hk := contrEquiv1_symm_val E1 32 rfl rfl q
  have el : E1.lhsIdx (ix2 r c) ((contrEquiv1 E1 32 rfl rfl).symm q) = ix2 r q := funext fun a => Fin.ext (by
    match a with
    | ⟨0, _⟩ => exact e1_lhs_row _ _
    | ⟨1, _⟩ => exact (E1.lhsIdx_val_of_single rfl _ _).trans hk)
  have er : E1.rhsIdx (ix2 r c) ((contrEquiv1 E1 32 rfl rfl).symm q) = ix2 q c := funext fun a => Fin.ext (by
    match a with
    | ⟨0, _⟩ => exact (E1.rhsIdx_val_of_single rfl _ _).trans hk
    | ⟨1, _⟩ => exact e1_rhs_col _ _)
  rw [el, er, activation_ix]

end Cert.ReferenceIdeal.Layers

end
-- ==== Proof.RefSoftmax.lean ====
/-
  The reference program's output stage as jax writes it, equal to the specification's biased log-softmax. The bias
  vector reaches the matrix by two broadcasts; the row maximum is a reduce with `max` from −∞, taken once more
  against a splat of −∞ (which changes nothing), kept as a column [n, 1] and broadcast back over the lanes; the row sum
  of exponentials is a reduce with `+` from the literal zero (which adds nothing), and its logarithm is kept as a column
  and broadcast back. All over ANY operand arrays.
-/
import proofs.«131457_j35519379537969_1_alg».proof.Proof.Gen.ReferenceIdeal
import proofs.«131457_j35519379537969_1_alg».proof.Proof.Spec
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

namespace Cert.ReferenceIdeal.Softmax

open Cert.ReferenceIdeal Idealize.ShloMosaic Idealize.ShloMosaic.ValueIdx Cert.GCN
open Cert.ReferenceIdeal.Facts₀ Cert.ReferenceIdeal.Facts
open scoped BigOperators

/-! ## Broadcasts read at an index -/

/-- A bias vector [8] broadcast to a row and then over 100000 rows reads, at (r, q), the vector's entry q. -/
theorem bias8_ix (b : FVec Ideal S8 .f32) (r : Fin 100000) (q : Fin 8) :
    broadcastInDim S100000x8 ![0, 1] bcast_S1x8_S100000x8_0_1 (broadcastInDim S1x8 ![1] bcast_S8_S1x8_1 b) (ix2 r q) = b (ix1 q) := by
  refine (broadcastInDim_apply _ bcast_S1x8_S100000x8_0_1 _ (ix2 r q) (ix2 (0 : Fin 1) q) (fun a => ?_)).trans ?_
  · match a with
    | ⟨0, _⟩ => show 0 = if (1 : Nat) = 1 then 0 else r.val; rw [if_pos rfl]
    | ⟨1, _⟩ => show q.val = if (8 : Nat) = 1 then 0 else q.val; rw [if_neg (by decide)]
  · exact broadcastInDim_apply _ bcast_S8_S1x8_1 b (ix2 (0 : Fin 1) q) (ix1 q) (fun a => match a with
      | ⟨0, _⟩ => by show q.val = if (8 : Nat) = 1 then 0 else q.val; rw [if_neg (by decide)])

/-- A vector [100000] kept as a column reads, at (r, u), the vector's entry r. -/
theorem column_ix (v : FVec Ideal S100000 .f32) (r : Fin 100000) (u : Fin 1) :
    broadcastInDim S100000x1 ![0] bcast_S100000_S100000x1_0 v (ix2 r u) = v (ix1 r) :=
  broadcastInDim_apply _ bcast_S100000_S100000x1_0 v (ix2 r u) (ix1 r) (fun a => match a with
    | ⟨0, _⟩ => by show r.val = if (100000 : Nat) = 1 then 0 else r.val; rw [if_neg (by decide)])

/-- A column [100000, 1] broadcast over 8 lanes reads, at (r, q), the column's entry r. -/
theorem lanes_ix (w : FVec Ideal S100000x1 .f32) (r : Fin 100000) (q : Fin 8) :
    broadcastInDim S100000x8 ![0, 1] bcast_S100000x1_S100000x8_0_1 w (ix2 r q) = w (ix2 r (0 : Fin 1)) :=
  broadcastInDim_apply _ bcast_S100000x1_S100000x8_0_1 w (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

/-! ## The output layer -/

/-- The aggregate plus the broadcast bias. -/
def biased (a : FVec Ideal S100000x8 .f32) (b : FVec Ideal S8 .f32) : FVec Ideal S100000x8 .f32 :=
  addf a (broadcastInDim S100000x8 ![0, 1] bcast_S1x8_S100000x8_0_1 (broadcastInDim S1x8 ![1] bcast_S8_S1x8_1 b))

/-- Each row's maximum as jax takes it: a reduce with `max` from −∞, then once more against a splat of −∞. -/
def rowMaxV (o : FVec Ideal S100000x8 .f32) : FVec Ideal S100000 .f32 :=
  maximumf (broadcastInDim S100000 ![] bcast_S_S100000 (constant S_ .f32 0xFF800000#32))
    (Host.reduce FloatOps.maximumf o (constant S_ .f32 0xFF800000#32) reducesTo_S100000x8_S100000_d1 h_S_)

/-- Each entry minus its row's entry of a vector (the vector kept as a column and broadcast back over the lanes). -/
def shiftBy (o : FVec Ideal S100000x8 .f32) (v : FVec Ideal S100000 .f32) : FVec Ideal S100000x8 .f32 :=
  subf o (broadcastInDim S100000x8 ![0, 1] bcast_S100000x1_S100000x8_0_1 (broadcastInDim S100000x1 ![0] bcast_S100000_S100000x1_0 v))

/-- Each entry minus its row's maximum. -/
def shifted (o : FVec Ideal S100000x8 .f32) : FVec Ideal S100000x8 .f32 :=
  shiftBy o (rowMaxV o)

/-- The shifted entries minus the logarithm of their row's sum of exponentials. -/
def normalized (z : FVec Ideal S100000x8 .f32) : FVec Ideal S100000x8 .f32 :=
  subf z (broadcastInDim S100000x8 ![0, 1] bcast_S100000x1_S100000x8_0_1
    (Host.log (broadcastInDim S100000x1 ![0] bcast_S100000_S100000x1_0
      (Host.reduceAdd (Host.exp z) (constant S_ .f32 0x00000000#32) reducesTo_S100000x8_S100000_d1 h_S_))))

/-! ## Each of them at an index

The reductions run along the second axis: the row maximum and the row sum of ANY [100000, 8] array are the fold of `max`
from −∞ and the plain sum over that row's eight entries. -/

/-- A host logarithm, and a host exponential, of an array read at an index. -/
theorem hostLog_ix {s : Shape} (x : FVec Ideal s .f32) (i : s.Idx) : Host.log x i = Ideal.log (x i) := rfl
theorem hostExp_ix {s : Shape} (x : FVec Ideal s .f32) (i : s.Idx) : Host.exp x i = Ideal.exp (x i) := rfl

theorem biased_ix (a : FVec Ideal S100000x8 .f32) (b : FVec Ideal S8 .f32) (r : Fin 100000) (q : Fin 8) :
    biased a b (ix2 r q) = a (ix2 r q) + b (ix1 q) := by
  unfold biased
  rw [addf_apply, bias8_ix]

/-- The reduction's shape fact in the form that names the inserted coordinate. -/
theorem reduces8 : S100000x8.Reduces [1] S100000 := by decide

theorem lift_ix (r : Fin 100000) (q : Fin 8) : reduces8.lift (ix1 r) q = ix2 r q :=
  funext fun a => Fin.ext (by
    match a with
    | ⟨0, _⟩ => rfl
    | ⟨1, _⟩ => rfl)

/-- A splat of a literal over the rows reads the literal. -/
theorem splat_ix (w : BitVec 32) (r : Fin 100000) :
    broadcastInDim S100000 ![] bcast_S_S100000 (constant (F := Ideal) S_ .f32 w) (ix1 r) = Ideal.ofBits .f32 w := by
  rw [broadcastInDim_apply _ bcast_S_S100000 _ (ix1 r) ix0 (fun a => a.elim0), constant_apply]

/-- The host's row maximum of ANY array: the fold of `max` from −∞ over the row's eight entries. -/
theorem hostRowMax_ix (o : FVec Ideal S100000x8 .f32) (r : Fin 100000) :
    Host.reduce FloatOps.maximumf o (constant (F := Ideal) S_ .f32 0xFF800000#32) reducesTo_S100000x8_S100000_d1 h_S_ (ix1 r)
      = rowMax (fun q : Fin 8 => o (ix2 r q)) := by
  rw [Host.reduce_eq_fold_single FloatOps.maximumf o _ reducesTo_S100000x8_S100000_d1 reduces8 h_S_ (ix1 r), constant_apply]
  have hf : (o ∘ reduces8.lift (ix1 r)) = fun q : Fin 8 => o (ix2 r q) := funext fun q => congrArg o (lift_ix r q)
  rw [hf]
  rfl

/-- The host's row sum of ANY array from the literal zero: the sum of the row's eight entries. -/
theorem hostRowSum_ix (y : FVec Ideal S100000x8 .f32) (r : Fin 100000) :
    Host.reduceAdd y (constant (F := Ideal) S_ .f32 0x00000000#32) reducesTo_S100000x8_S100000_d1 h_S_ (ix1 r)
      = ∑ q : Fin 8, y (ix2 r q) := by
  simp only [Host.reduceAdd, Ideal.hostReduceAdd_def]
  rw [Ideal.hostReduceAdd_single reducesTo_S100000x8_S100000_d1 reduces8, constant_apply, Ideal.ofBits_zero_f32, zero_add]
  exact Finset.sum_congr rfl fun q _ => congrArg y (lift_ix r q)

theorem rowMaxV_ix (o : FVec Ideal S100000x8 .f32) (r : Fin 100000) :
    rowMaxV o (ix1 r) = rowMax (fun q : Fin 8 => o (ix2 r q)) := by
  unfold rowMaxV
  rw [maximumf_apply, splat_ix, hostRowMax_ix]
  exact max_rowMax _

theorem shifted_ix (o : FVec Ideal S100000x8 .f32) (r : Fin 100000) (q : Fin 8) :
    shifted o (ix2 r q) = o (ix2 r q) - rowMax (fun q' : Fin 8 => o (ix2 r q')) := by
  unfold shifted shiftBy
  rw [subf_apply, lanes_ix, column_ix, rowMaxV_ix]

theorem normalized_ix (z : FVec Ideal S100000x8 .f32) (r : Fin 100000) (c : Fin 8) :
    normalized z (ix2 r c) = z (ix2 r c) - Ideal.log (∑ q : Fin 8, Ideal.exp (z (ix2 r q))) := by
  unfold normalized
  rw [subf_apply, lanes_ix, hostLog_ix, column_ix, hostRowSum_ix]
  simp only [hostExp_ix]

/-- jax's log-softmax of the biased aggregate is the output layer's function. -/
theorem logSoftmax_eq (a : FVec Ideal S100000x8 .f32) (b : FVec Ideal S8 .f32) :
    normalized (shifted (biased a b)) = logSoftmax a b := by
  funext i
  obtain ⟨r, c, rfl⟩ : ∃ (r : Fin 100000) (c : Fin 8), i = ix2 r c := ⟨i 0, i 1, eq_ix2 i⟩
  rw [logSoftmax_ix, normalized_ix]
  simp only [shifted_ix, biased_ix]
  rfl

/-- The same with the shift spelt out: the form the reference's operations produce it in. -/
theorem logSoftmax_eq' (a : FVec Ideal S100000x8 .f32) (b : FVec Ideal S8 .f32) :
    normalized (shiftBy (biased a b) (rowMaxV (biased a b))) = logSoftmax a b :=
  logSoftmax_eq a b

end Cert.ReferenceIdeal.Softmax

end
-- ==== Proof.RefFold.lean ====
/-
  The reference program's fold of its 98 host operations, read at the result buffer: the network's function of the
  six argument arrays. The operations are cut into consecutive slices that mirror the kernel program's segments —
  the 40 that compute the edges' sources, targets and norms (in three parts: 18, the 3 of the outlined jnp.where, 19);
  the first matrix product; the 16 of the first aggregation; the 7 of bias, positive part and second product; the 16 of
  the second aggregation; the 18 of bias and log-softmax (in four parts: the bias, the row maximum, the shift, the rest) — and each slice's result is ONE function of the contents it
  starts from (the shared host functions of HostTerms, the two matrix-product stages of RefLayers and the log-softmax of
  RefSoftmax). The operations of the outlined log-softmax are written in the slices with the plain builders (the printed program wraps each in a transport along a type equation that is the identity: the two spellings are one function). A buffer a slice does not write is read through it unchanged: no operation of the slice has it among
  the buffers it writes.
-/
import proofs.«131457_j35519379537969_1_alg».proof.Proof.RefRunP
import proofs.«131457_j35519379537969_1_alg».proof.Proof.RefLayers
import proofs.«131457_j35519379537969_1_alg».proof.Proof.RefSoftmax
import proofs.«131457_j35519379537969_1_alg».proof.Proof.HostTerms
import Idealize.ShloMosaic.Lib.StableHlo.Run

set_option maxRecDepth 16384

noncomputable section

namespace Cert.ReferenceIdeal.Fold

open Cert.ReferenceIdeal Cert.ReferenceIdeal.Gen Cert.ReferenceIdeal.ValueP Cert.ReferenceIdeal.Layers Cert.ReferenceIdeal.Softmax
open Idealize.ShloMosaic Idealize.ShloMosaic.TcCoe Idealize.SL.Sem Idealize.ShloMosaic.StableHlo
open Cert.KernelIdeal.HostTerms Cert.GCN

section Slices

variable {F : FTy → Type} [FloatOps F]

/-! ## The slices of @main's operations -/

/-- The edges' sources and targets, the degrees, their sign test and inverse square root (18 operations). -/
abbrev ops0a : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 (joined (F := F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 (joined (F := F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- jnp.where, outlined: the inverse square root where the degree is positive, zero elsewhere (3 operations). -/
abbrev ops0b : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The edges' norms: the two ends' entries gathered and multiplied (19 operations). -/
abbrev ops0c : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- The first matrix product. -/
abbrev ops1 : List (HloOp τ sig (Elt F)) :=
  [ binary main_arg0 main_arg2 main_v30 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)) ]

/-- The first aggregation over the edges (16 operations). -/
abbrev ops2 : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v30 main_v36 main_v37 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v29 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x32 ![0, 1] bcast_S3300000x1_S3300000x32_0_1 : (⟨S3300000x1, .f32⟩ : BufTy).Contents (Elt F) → (⟨S3300000x32, .f32⟩ : BufTy).Contents (Elt F)),
    binary main_v37 main_v39 main_v40 (mulf : (⟨S3300000x32, .f32⟩ : BufTy).Contents (Elt F) → (⟨S3300000x32, .f32⟩ : BufTy).Contents (Elt F) → (⟨S3300000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)) ]

/-- Bias, positive part and the second matrix product (7 operations). -/
abbrev ops3 : List (HloOp τ sig (Elt F)) :=
  [ unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf,
    binary main_v47 main_arg4 main_v48 ((fun l r => Host.dotGeneral dot_S100000x32_S32x8_S100000x8_1_0_0_1_n_n none l r) : (⟨S100000x32, .f32⟩ : BufTy).Contents (Elt F) → (⟨S32x8, .f32⟩ : BufTy).Contents (Elt F) → (⟨S100000x8, .f32⟩ : BufTy).Contents (Elt F)) ]

/-- The second aggregation over the edges (16 operations). -/
abbrev ops4 : List (HloOp τ sig (Elt F)) :=
  [ nullary main_c_9 (constantI S_ 32 0#32),
    unary main_c_9 main_v49 (broadcastInDim S3300000 ![] bcast_S_S3300000 : (⟨S_, .i32⟩ : BufTy).Contents (Elt F) → (⟨S3300000, .i32⟩ : BufTy).Contents (Elt F)),
    binary main_v3 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v3 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48 main_v54 main_v55 ((fun x i => Host.gather gather_S100000x8_S3300000x1_S3300000x8_1_0_n_n_0_1_18 x i) : (⟨S100000x8, .f32⟩ : BufTy).Contents (Elt F) → (⟨S3300000x1, .i32⟩ : BufTy).Contents (Elt F) → (⟨S3300000x8, .f32⟩ : BufTy).Contents (Elt F)),
    unary main_v29 main_v56 (broadcastInDim S3300000x1 ![0] bcast_S3300000_S3300000x1_0 : (⟨S3300000, .f32⟩ : BufTy).Contents (Elt F) → (⟨S3300000x1, .f32⟩ : BufTy).Contents (Elt F)),
    unary main_v56 main_v57 (broadcastInDim S3300000x8 ![0, 1] bcast_S3300000x1_S3300000x8_0_1 : (⟨S3300000x1, .f32⟩ : BufTy).Contents (Elt F) → (⟨S3300000x8, .f32⟩ : BufTy).Contents (Elt F)),
    binary main_v55 main_v57 main_v58 (mulf : (⟨S3300000x8, .f32⟩ : BufTy).Contents (Elt F) → (⟨S3300000x8, .f32⟩ : BufTy).Contents (Elt F) → (⟨S3300000x8, .f32⟩ : BufTy).Contents (Elt F)),
    nullary main_cst_11 (constant S_ .f32 0x00000000#32),
    unary main_cst_11 main_v59 (broadcastInDim S100000x8 ![] bcast_S_S100000x8 : (⟨S_, .f32⟩ : BufTy).Contents (Elt F) → (⟨S100000x8, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x8_S3300000x1_S3300000x8_1_0_0_1 x i u) : (⟨S100000x8, .f32⟩ : BufTy).Contents (Elt F) → (⟨S3300000x1, .i32⟩ : BufTy).Contents (Elt F) → (⟨S3300000x8, .f32⟩ : BufTy).Contents (Elt F) → (⟨S100000x8, .f32⟩ : BufTy).Contents (Elt F)) ]

/-- The second bias added (3 operations). -/
abbrev ops5a : List (HloOp τ sig (Elt F)) :=
  [ unary main_arg5 main_v62 (broadcastInDim S1x8 ![1] bcast_S8_S1x8_1 : (⟨S8, .f32⟩ : BufTy).Contents (Elt F) → (⟨S1x8, .f32⟩ : BufTy).Contents (Elt F)),
    unary main_v62 main_v63 (broadcastInDim S100000x8 ![0, 1] bcast_S1x8_S100000x8_0_1 : (⟨S1x8, .f32⟩ : BufTy).Contents (Elt F) → (⟨S100000x8, .f32⟩ : BufTy).Contents (Elt F)),
    binary main_v61 main_v63 main_v64 (addf : (⟨S100000x8, .f32⟩ : BufTy).Contents (Elt F) → (⟨S100000x8, .f32⟩ : BufTy).Contents (Elt F) → (⟨S100000x8, .f32⟩ : BufTy).Contents (Elt F)) ]

/-- log-softmax, outlined: each row's maximum (5 operations). -/
abbrev ops5b : List (HloOp τ sig (Elt F)) :=
  [ nullary main_call2_cst ((constant S_ .f32 0xFF800000#32) : (⟨S_, .f32⟩ : BufTy).Contents (Elt F)),
    binary main_v64 main_call2_cst main_call2_v0 ((fun x v => Host.reduce FloatOps.maximumf x v reducesTo_S100000x8_S100000_d1 h_S_) : (⟨S100000x8, .f32⟩ : BufTy).Contents (Elt F) → (⟨S_, .f32⟩ : BufTy).Contents (Elt F) → (⟨S100000, .f32⟩ : BufTy).Contents (Elt F)),
    nullary main_call2_cst_0 ((constant S_ .f32 0xFF800000#32) : (⟨S_, .f32⟩ : BufTy).Contents (Elt F)),
    unary main_call2_cst_0 main_call2_v1 ((broadcastInDim S100000 ![] bcast_S_S100000) : (⟨S_, .f32⟩ : BufTy).Contents (Elt F) → (⟨S100000, .f32⟩ : BufTy).Contents (Elt F)),
    binary main_call2_v1 main_call2_v0 main_call2_v2 (maximumf : (⟨S100000, .f32⟩ : BufTy).Contents (Elt F) → (⟨S100000, .f32⟩ : BufTy).Contents (Elt F) → (⟨S100000, .f32⟩ : BufTy).Contents (Elt F)) ]

/-- log-softmax: the maximum kept as a column, broadcast back and subtracted (3 operations). -/
abbrev ops5c : List (HloOp τ sig (Elt F)) :=
  [ unary main_call2_v2 main_call2_v3 ((broadcastInDim S100000x1 ![0] bcast_S100000_S100000x1_0) : (⟨S100000, .f32⟩ : BufTy).Contents (Elt F) → (⟨S100000x1, .f32⟩ : BufTy).Contents (Elt F)),
    unary main_call2_v3 main_call2_v4 ((broadcastInDim S100000x8 ![0, 1] bcast_S100000x1_S100000x8_0_1) : (⟨S100000x1, .f32⟩ : BufTy).Contents (Elt F) → (⟨S100000x8, .f32⟩ : BufTy).Contents (Elt F)),
    binary main_v64 main_call2_v4 main_call2_v5 (subf : (⟨S100000x8, .f32⟩ : BufTy).Contents (Elt F) → (⟨S100000x8, .f32⟩ : BufTy).Contents (Elt F) → (⟨S100000x8, .f32⟩ : BufTy).Contents (Elt F)) ]

/-- log-softmax: exponentials, row sums, logarithm, the final subtraction (7 operations). -/
abbrev ops5d : List (HloOp τ sig (Elt F)) :=
  [ unary main_call2_v5 main_call2_v6 (Host.exp : (⟨S100000x8, .f32⟩ : BufTy).Contents (Elt F) → (⟨S100000x8, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S100000x8_S100000_d1 h_S_) : (⟨S100000x8, .f32⟩ : BufTy).Contents (Elt F) → (⟨S_, .f32⟩ : BufTy).Contents (Elt F) → (⟨S100000, .f32⟩ : BufTy).Contents (Elt F)),
    unary main_call2_v7 main_call2_v8 ((broadcastInDim S100000x1 ![0] bcast_S100000_S100000x1_0) : (⟨S100000, .f32⟩ : BufTy).Contents (Elt F) → (⟨S100000x1, .f32⟩ : BufTy).Contents (Elt F)),
    unary main_call2_v8 main_call2_v9 (Host.log : (⟨S100000x1, .f32⟩ : BufTy).Contents (Elt F) → (⟨S100000x1, .f32⟩ : BufTy).Contents (Elt F)),
    unary main_call2_v9 main_call2_v10 ((broadcastInDim S100000x8 ![0, 1] bcast_S100000x1_S100000x8_0_1) : (⟨S100000x1, .f32⟩ : BufTy).Contents (Elt F) → (⟨S100000x8, .f32⟩ : BufTy).Contents (Elt F)),
    binary main_call2_v5 main_call2_v10 main_v65 (subf : (⟨S100000x8, .f32⟩ : BufTy).Contents (Elt F) → (⟨S100000x8, .f32⟩ : BufTy).Contents (Elt F) → (⟨S100000x8, .f32⟩ : BufTy).Contents (Elt F)) ]

/-! ### The outlined log-softmax's operations in the printed spelling

The printed program writes each of them through a transport of its operands and result along a type equation that
holds by computation, so the transport is the identity: over ANY function (or value) the printed spelling and the
plain builder are one operation. -/

/-- The row maximum's five operations as printed. -/
abbrev ops5bT : List (HloOp τ sig (Elt F)) :=
  [ TRef.nullary (TRef.of (T := ⟨S_, .f32⟩) main_call2_cst) (constant S_ .f32 0xFF800000#32),
    TRef.binary (TRef.of (T := ⟨S100000x8, .f32⟩) main_v64) (TRef.of (T := ⟨S_, .f32⟩) main_call2_cst) (TRef.of (T := ⟨S100000, .f32⟩) main_call2_v0) (fun x v => Host.reduce FloatOps.maximumf x v reducesTo_S100000x8_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- The shift's three operations as printed. -/
abbrev ops5cT : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x8, .f32⟩) main_call2_v4) (broadcastInDim S100000x8 ![0, 1] bcast_S100000x1_S100000x8_0_1),
    TRef.binary (TRef.of (T := ⟨S100000x8, .f32⟩) main_v64) (TRef.of (T := ⟨S100000x8, .f32⟩) main_call2_v4) (TRef.of (T := ⟨S100000x8, .f32⟩) main_call2_v5) subf ]

/-- The last seven operations as printed. -/
abbrev ops5dT : List (HloOp τ sig (Elt F)) :=
  [ TRef.unary (TRef.of (T := ⟨S100000x8, .f32⟩) main_call2_v5) (TRef.of (T := ⟨S100000x8, .f32⟩) main_call2_v6) Host.exp,
    TRef.nullary (TRef.of (T := ⟨S_, .f32⟩) main_call2_cst_1) (constant S_ .f32 0x00000000#32),
    TRef.binary (TRef.of (T := ⟨S100000x8, .f32⟩) main_call2_v6) (TRef.of (T := ⟨S_, .f32⟩) main_call2_cst_1) (TRef.of (T := ⟨S100000, .f32⟩) main_call2_v7) (fun x v => Host.reduceAdd x v reducesTo_S100000x8_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x8, .f32⟩) main_call2_v10) (broadcastInDim S100000x8 ![0, 1] bcast_S100000x1_S100000x8_0_1),
    TRef.binary (TRef.of (T := ⟨S100000x8, .f32⟩) main_call2_v5) (TRef.of (T := ⟨S100000x8, .f32⟩) main_call2_v10) (TRef.of (T := ⟨S100000x8, .f32⟩) main_v65) subf ]

theorem plain83 (v : (⟨S_, .f32⟩ : BufTy).Contents (Elt F)) :
    TRef.nullary (τ := τ) (TRef.of (T := ⟨S_, .f32⟩) main_call2_cst) v = nullary main_call2_cst v := rfl
theorem plain84 (f : (⟨S100000x8, .f32⟩ : BufTy).Contents (Elt F) → (⟨S_, .f32⟩ : BufTy).Contents (Elt F) → (⟨S100000, .f32⟩ : BufTy).Contents (Elt F)) :
    TRef.binary (τ := τ) (TRef.of (T := ⟨S100000x8, .f32⟩) main_v64) (TRef.of (T := ⟨S_, .f32⟩) main_call2_cst) (TRef.of (T := ⟨S100000, .f32⟩) main_call2_v0) f = binary main_v64 main_call2_cst main_call2_v0 f := rfl
theorem plain85 (v : (⟨S_, .f32⟩ : BufTy).Contents (Elt F)) :
    TRef.nullary (τ := τ) (TRef.of (T := ⟨S_, .f32⟩) main_call2_cst_0) v = nullary main_call2_cst_0 v := rfl
theorem plain86 (f : (⟨S_, .f32⟩ : BufTy).Contents (Elt F) → (⟨S100000, .f32⟩ : BufTy).Contents (Elt F)) :
    TRef.unary (τ := τ) (TRef.of (T := ⟨S_, .f32⟩) main_call2_cst_0) (TRef.of (T := ⟨S100000, .f32⟩) main_call2_v1) f = unary main_call2_cst_0 main_call2_v1 f := rfl
theorem plain87 (f : (⟨S100000, .f32⟩ : BufTy).Contents (Elt F) → (⟨S100000, .f32⟩ : BufTy).Contents (Elt F) → (⟨S100000, .f32⟩ : BufTy).Contents (Elt F)) :
    TRef.binary (τ := τ) (TRef.of (T := ⟨S100000, .f32⟩) main_call2_v1) (TRef.of (T := ⟨S100000, .f32⟩) main_call2_v0) (TRef.of (T := ⟨S100000, .f32⟩) main_call2_v2) f = binary main_call2_v1 main_call2_v0 main_call2_v2 f := rfl
theorem plain88 (f : (⟨S100000, .f32⟩ : BufTy).Contents (Elt F) → (⟨S100000x1, .f32⟩ : BufTy).Contents (Elt F)) :
    TRef.unary (τ := τ) (TRef.of (T := ⟨S100000, .f32⟩) main_call2_v2) (TRef.of (T := ⟨S100000x1, .f32⟩) main_call2_v3) f = unary main_call2_v2 main_call2_v3 f := rfl
theorem plain89 (f : (⟨S100000x1, .f32⟩ : BufTy).Contents (Elt F) → (⟨S100000x8, .f32⟩ : BufTy).Contents (Elt F)) :
    TRef.unary (τ := τ) (TRef.of (T := ⟨S100000x1, .f32⟩) main_call2_v3) (TRef.of (T := ⟨S100000x8, .f32⟩) main_call2_v4) f = unary main_call2_v3 main_call2_v4 f := rfl
theorem plain90 (f : (⟨S100000x8, .f32⟩ : BufTy).Contents (Elt F) → (⟨S100000x8, .f32⟩ : BufTy).Contents (Elt F) → (⟨S100000x8, .f32⟩ : BufTy).Contents (Elt F)) :
    TRef.binary (τ := τ) (TRef.of (T := ⟨S100000x8, .f32⟩) main_v64) (TRef.of (T := ⟨S100000x8, .f32⟩) main_call2_v4) (TRef.of (T := ⟨S100000x8, .f32⟩) main_call2_v5) f = binary main_v64 main_call2_v4 main_call2_v5 f := rfl
theorem plain91 (f : (⟨S100000x8, .f32⟩ : BufTy).Contents (Elt F) → (⟨S100000x8, .f32⟩ : BufTy).Contents (Elt F)) :
    TRef.unary (τ := τ) (TRef.of (T := ⟨S100000x8, .f32⟩) main_call2_v5) (TRef.of (T := ⟨S100000x8, .f32⟩) main_call2_v6) f = unary main_call2_v5 main_call2_v6 f := rfl
theorem plain92 (v : (⟨S_, .f32⟩ : BufTy).Contents (Elt F)) :
    TRef.nullary (τ := τ) (TRef.of (T := ⟨S_, .f32⟩) main_call2_cst_1) v = nullary main_call2_cst_1 v := rfl
theorem plain93 (f : (⟨S100000x8, .f32⟩ : BufTy).Contents (Elt F) → (⟨S_, .f32⟩ : BufTy).Contents (Elt F) → (⟨S100000, .f32⟩ : BufTy).Contents (Elt F)) :
    TRef.binary (τ := τ) (TRef.of (T := ⟨S100000x8, .f32⟩) main_call2_v6) (TRef.of (T := ⟨S_, .f32⟩) main_call2_cst_1) (TRef.of (T := ⟨S100000, .f32⟩) main_call2_v7) f = binary main_call2_v6 main_call2_cst_1 main_call2_v7 f := rfl
theorem plain94 (f : (⟨S100000, .f32⟩ : BufTy).Contents (Elt F) → (⟨S100000x1, .f32⟩ : BufTy).Contents (Elt F)) :
    TRef.unary (τ := τ) (TRef.of (T := ⟨S100000, .f32⟩) main_call2_v7) (TRef.of (T := ⟨S100000x1, .f32⟩) main_call2_v8) f = unary main_call2_v7 main_call2_v8 f := rfl
theorem plain95 (f : (⟨S100000x1, .f32⟩ : BufTy).Contents (Elt F) → (⟨S100000x1, .f32⟩ : BufTy).Contents (Elt F)) :
    TRef.unary (τ := τ) (TRef.of (T := ⟨S100000x1, .f32⟩) main_call2_v8) (TRef.of (T := ⟨S100000x1, .f32⟩) main_call2_v9) f = unary main_call2_v8 main_call2_v9 f := rfl
theorem plain96 (f : (⟨S100000x1, .f32⟩ : BufTy).Contents (Elt F) → (⟨S100000x8, .f32⟩ : BufTy).Contents (Elt F)) :
    TRef.unary (τ := τ) (TRef.of (T := ⟨S100000x1, .f32⟩) main_call2_v9) (TRef.of (T := ⟨S100000x8, .f32⟩) main_call2_v10) f = unary main_call2_v9 main_call2_v10 f := rfl
theorem plain97 (f : (⟨S100000x8, .f32⟩ : BufTy).Contents (Elt F) → (⟨S100000x8, .f32⟩ : BufTy).Contents (Elt F) → (⟨S100000x8, .f32⟩ : BufTy).Contents (Elt F)) :
    TRef.binary (τ := τ) (TRef.of (T := ⟨S100000x8, .f32⟩) main_call2_v5) (TRef.of (T := ⟨S100000x8, .f32⟩) main_call2_v10) (TRef.of (T := ⟨S100000x8, .f32⟩) main_v65) f = binary main_call2_v5 main_call2_v10 main_v65 f := rfl

theorem ops5b_eq : (ops5bT (F := F)) = ops5b := by
  unfold ops5bT ops5b
  rw [plain83, plain84, plain85, plain86, plain87]

theorem ops5c_eq : (ops5cT (F := F)) = ops5c := by
  unfold ops5cT ops5c
  rw [plain88, plain89, plain90]

theorem ops5d_eq : (ops5dT (F := F)) = ops5d := by
  unfold ops5dT ops5d
  rw [plain91, plain92, plain93, plain94, plain95, plain96, plain97]

set_option maxRecDepth 65536 in
/-- @main's operation list is the slices in order. -/
theorem ops_split : (ops (F := F)) = ops0a ++ (ops0b ++ (ops0c ++ (ops1 ++ (ops2 ++ (ops3 ++ (ops4 ++ (ops5a ++ (ops5b ++ (ops5c ++ ops5d))))))))) := by
  rw [← ops5b_eq, ← ops5c_eq, ← ops5d_eq]
  rfl

end Slices

/-- The fold over a concatenation is the fold over the second list from the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-! ## What each slice leaves unwritten -/

theorem c0a_arg0 (U : Valuation τ sig (Elt Ideal)) : after (ops0a (F := Ideal)) U (Proc.devRef .tc main_arg0) = U (Proc.devRef .tc main_arg0) :=
  after_of_forall_not_mem (b := Proc.devRef .tc main_arg0) _ _ (List.forall_iff_forall_mem.mp (by
    simp only [ops0a, List.Forall, nullary_writes, unary_writes, binary_writes, ternary_writes, quaternary_writes, reshape_writes, binaryIndexed_writes, Finset.mem_singleton]
    repeat' apply And.intro
    all_goals exact devRef_ne_of_ne (by decide)))
theorem c0a_arg1 (U : Valuation τ sig (Elt Ideal)) : after (ops0a (F := Ideal)) U (Proc.devRef .tc main_arg1) = U (Proc.devRef .tc main_arg1) :=
  after_of_forall_not_mem (b := Proc.devRef .tc main_arg1) _ _ (List.forall_iff_forall_mem.mp (by
    simp only [ops0a, List.Forall, nullary_writes, unary_writes, binary_writes, ternary_writes, quaternary_writes, reshape_writes, binaryIndexed_writes, Finset.mem_singleton]
    repeat' apply And.intro
    all_goals exact devRef_ne_of_ne (by decide)))
theorem c0a_arg2 (U : Valuation τ sig (Elt Ideal)) : after (ops0a (F := Ideal)) U (Proc.devRef .tc main_arg2) = U (Proc.devRef .tc main_arg2) :=
  after_of_forall_not_mem (b := Proc.devRef .tc main_arg2) _ _ (List.forall_iff_forall_mem.mp (by
    simp only [ops0a, List.Forall, nullary_writes, unary_writes, binary_writes, ternary_writes, quaternary_writes, reshape_writes, binaryIndexed_writes, Finset.mem_singleton]
    repeat' apply And.intro
    all_goals exact devRef_ne_of_ne (by decide)))
theorem c0a_arg3 (U : Valuation τ sig (Elt Ideal)) : after (ops0a (F := Ideal)) U (Proc.devRef .tc main_arg3) = U (Proc.devRef .tc main_arg3) :=
  after_of_forall_not_mem (b := Proc.devRef .tc main_arg3) _ _ (List.forall_iff_forall_mem.mp (by
    simp only [ops0a, List.Forall, nullary_writes, unary_writes, binary_writes, ternary_writes, quaternary_writes, reshape_writes, binaryIndexed_writes, Finset.mem_singleton]
    repeat' apply And.intro
    all_goals exact devRef_ne_of_ne (by decide)))
theorem c0a_arg4 (U : Valuation τ sig (Elt Ideal)) : after (ops0a (F := Ideal)) U (Proc.devRef .tc main_arg4) = U (Proc.devRef .tc main_arg4) :=
  after_of_forall_not_mem (b := Proc.devRef .tc main_arg4) _ _ (List.forall_iff_forall_mem.mp (by
    simp only [ops0a, List.Forall, nullary_writes, unary_writes, binary_writes, ternary_writes, quaternary_writes, reshape_writes, binaryIndexed_writes, Finset.mem_singleton]
    repeat' apply And.intro
    all_goals exact devRef_ne_of_ne (by decide)))
theorem c0a_arg5 (U : Valuation τ sig (Elt Ideal)) : after (ops0a (F := Ideal)) U (Proc.devRef .tc main_arg5) = U (Proc.devRef .tc main_arg5) :=
  after_of_forall_not_mem (b := Proc.devRef .tc main_arg5) _ _ (List.forall_iff_forall_mem.mp (by
    simp only [ops0a, List.Forall, nullary_writes, unary_writes, binary_writes, ternary_writes, quaternary_writes, reshape_writes, binaryIndexed_writes, Finset.mem_singleton]
    repeat' apply And.intro
    all_goals exact devRef_ne_of_ne (by decide)))

theorem c0b_src (U : Valuation τ sig (Elt Ideal)) : after (ops0b (F := Ideal)) U (Proc.devRef .tc main_v3) = U (Proc.devRef .tc main_v3) :=
  after_of_forall_not_mem (b := Proc.devRef .tc main_v3) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_dst (U : Valuation τ sig (Elt Ideal)) : after (ops0b (F := Ideal)) U (Proc.devRef .tc main_v6) = U (Proc.devRef .tc main_v6) :=
  after_of_forall_not_mem (b := Proc.devRef .tc main_v6) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_arg0 (U : Valuation τ sig (Elt Ideal)) : after (ops0b (F := Ideal)) U (Proc.devRef .tc main_arg0) = U (Proc.devRef .tc main_arg0) :=
  after_of_forall_not_mem (b := Proc.devRef .tc main_arg0) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_arg1 (U : Valuation τ sig (Elt Ideal)) : after (ops0b (F := Ideal)) U (Proc.devRef .tc main_arg1) = U (Proc.devRef .tc main_arg1) :=
  after_of_forall_not_mem (b := Proc.devRef .tc main_arg1) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_arg2 (U : Valuation τ sig (Elt Ideal)) : after (ops0b (F := Ideal)) U (Proc.devRef .tc main_arg2) = U (Proc.devRef .tc main_arg2) :=
  after_of_forall_not_mem (b := Proc.devRef .tc main_arg2) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_arg3 (U : Valuation τ sig (Elt Ideal)) : after (ops0b (F := Ideal)) U (Proc.devRef .tc main_arg3) = U (Proc.devRef .tc main_arg3) :=
  after_of_forall_not_mem (b := Proc.devRef .tc main_arg3) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_arg4 (U : Valuation τ sig (Elt Ideal)) : after (ops0b (F := Ideal)) U (Proc.devRef .tc main_arg4) = U (Proc.devRef .tc main_arg4) :=
  after_of_forall_not_mem (b := Proc.devRef .tc main_arg4) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))
theorem c0b_arg5 (U : Valuation τ sig (Elt Ideal)) : after (ops0b (F := Ideal)) U (Proc.devRef .tc main_arg5) = U (Proc.devRef .tc main_arg5) :=
  after_of_forall_not_mem (b := Proc.devRef .tc main_arg5) _ _ (List.forall_iff_forall_mem.mp (by
    simp only [ops0b, List.Forall, nullary_writes, unary_writes, binary_writes, ternary_writes, quaternary_writes, reshape_writes, binaryIndexed_writes, Finset.mem_singleton]
    repeat' apply And.intro
    all_goals exact devRef_ne_of_ne (by decide)))

theorem c0c_src (U : Valuation τ sig (Elt Ideal)) : after (ops0c (F := Ideal)) U (Proc.devRef .tc main_v3) = U (Proc.devRef .tc main_v3) :=
  after_of_forall_not_mem (b := Proc.devRef .tc main_v3) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_dst (U : Valuation τ sig (Elt Ideal)) : after (ops0c (F := Ideal)) U (Proc.devRef .tc main_v6) = U (Proc.devRef .tc main_v6) :=
  after_of_forall_not_mem (b := Proc.devRef .tc main_v6) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_arg0 (U : Valuation τ sig (Elt Ideal)) : after (ops0c (F := Ideal)) U (Proc.devRef .tc main_arg0) = U (Proc.devRef .tc main_arg0) :=
  after_of_forall_not_mem (b := Proc.devRef .tc main_arg0) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_arg1 (U : Valuation τ sig (Elt Ideal)) : after (ops0c (F := Ideal)) U (Proc.devRef .tc main_arg1) = U (Proc.devRef .tc main_arg1) :=
  after_of_forall_not_mem (b := Proc.devRef .tc main_arg1) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_arg2 (U : Valuation τ sig (Elt Ideal)) : after (ops0c (F := Ideal)) U (Proc.devRef .tc main_arg2) = U (Proc.devRef .tc main_arg2) :=
  after_of_forall_not_mem (b := Proc.devRef .tc main_arg2) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_arg3 (U : Valuation τ sig (Elt Ideal)) : after (ops0c (F := Ideal)) U (Proc.devRef .tc main_arg3) = U (Proc.devRef .tc main_arg3) :=
  after_of_forall_not_mem (b := Proc.devRef .tc main_arg3) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_arg4 (U : Valuation τ sig (Elt Ideal)) : after (ops0c (F := Ideal)) U (Proc.devRef .tc main_arg4) = U (Proc.devRef .tc main_arg4) :=
  after_of_forall_not_mem (b := Proc.devRef .tc main_arg4) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))
theorem c0c_arg5 (U : Valuation τ sig (Elt Ideal)) : after (ops0c (F := Ideal)) U (Proc.devRef .tc main_arg5) = U (Proc.devRef .tc main_arg5) :=
  after_of_forall_not_mem (b := Proc.devRef .tc main_arg5) _ _ (List.forall_iff_forall_mem.mp (by
    simp only [ops0c, List.Forall, nullary_writes, unary_writes, binary_writes, ternary_writes, quaternary_writes, reshape_writes, binaryIndexed_writes, Finset.mem_singleton]
    repeat' apply And.intro
    all_goals exact devRef_ne_of_ne (by decide)))

theorem c1_src (U : Valuation τ sig (Elt Ideal)) : after (ops1 (F := Ideal)) U (Proc.devRef .tc main_v3) = U (Proc.devRef .tc main_v3) :=
  after_of_forall_not_mem (b := Proc.devRef .tc main_v3) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_dst (U : Valuation τ sig (Elt Ideal)) : after (ops1 (F := Ideal)) U (Proc.devRef .tc main_v6) = U (Proc.devRef .tc main_v6) :=
  after_of_forall_not_mem (b := Proc.devRef .tc main_v6) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_norm (U : Valuation τ sig (Elt Ideal)) : after (ops1 (F := Ideal)) U (Proc.devRef .tc main_v29) = U (Proc.devRef .tc main_v29) :=
  after_of_forall_not_mem (b := Proc.devRef .tc main_v29) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_arg0 (U : Valuation τ sig (Elt Ideal)) : after (ops1 (F := Ideal)) U (Proc.devRef .tc main_arg0) = U (Proc.devRef .tc main_arg0) :=
  after_of_forall_not_mem (b := Proc.devRef .tc main_arg0) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_arg1 (U : Valuation τ sig (Elt Ideal)) : after (ops1 (F := Ideal)) U (Proc.devRef .tc main_arg1) = U (Proc.devRef .tc main_arg1) :=
  after_of_forall_not_mem (b := Proc.devRef .tc main_arg1) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_arg2 (U : Valuation τ sig (Elt Ideal)) : after (ops1 (F := Ideal)) U (Proc.devRef .tc main_arg2) = U (Proc.devRef .tc main_arg2) :=
  after_of_forall_not_mem (b := Proc.devRef .tc main_arg2) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_arg3 (U : Valuation τ sig (Elt Ideal)) : after (ops1 (F := Ideal)) U (Proc.devRef .tc main_arg3) = U (Proc.devRef .tc main_arg3) :=
  after_of_forall_not_mem (b := Proc.devRef .tc main_arg3) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_arg4 (U : Valuation τ sig (Elt Ideal)) : after (ops1 (F := Ideal)) U (Proc.devRef .tc main_arg4) = U (Proc.devRef .tc main_arg4) :=
  after_of_forall_not_mem (b := Proc.devRef .tc main_arg4) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))
theorem c1_arg5 (U : Valuation τ sig (Elt Ideal)) : after (ops1 (F := Ideal)) U (Proc.devRef .tc main_arg5) = U (Proc.devRef .tc main_arg5) :=
  after_of_forall_not_mem (b := Proc.devRef .tc main_arg5) _ _ (List.forall_iff_forall_mem.mp (by
    simp only [ops1, List.Forall, nullary_writes, unary_writes, binary_writes, ternary_writes, quaternary_writes, reshape_writes, binaryIndexed_writes, Finset.mem_singleton]
    repeat' apply And.intro
    all_goals exact devRef_ne_of_ne (by decide)))

theorem c2_src (U : Valuation τ sig (Elt Ideal)) : after (ops2 (F := Ideal)) U (Proc.devRef .tc main_v3) = U (Proc.devRef .tc main_v3) :=
  after_of_forall_not_mem (b := Proc.devRef .tc main_v3) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_dst (U : Valuation τ sig (Elt Ideal)) : after (ops2 (F := Ideal)) U (Proc.devRef .tc main_v6) = U (Proc.devRef .tc main_v6) :=
  after_of_forall_not_mem (b := Proc.devRef .tc main_v6) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_norm (U : Valuation τ sig (Elt Ideal)) : after (ops2 (F := Ideal)) U (Proc.devRef .tc main_v29) = U (Proc.devRef .tc main_v29) :=
  after_of_forall_not_mem (b := Proc.devRef .tc main_v29) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_arg0 (U : Valuation τ sig (Elt Ideal)) : after (ops2 (F := Ideal)) U (Proc.devRef .tc main_arg0) = U (Proc.devRef .tc main_arg0) :=
  after_of_forall_not_mem (b := Proc.devRef .tc main_arg0) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_arg1 (U : Valuation τ sig (Elt Ideal)) : after (ops2 (F := Ideal)) U (Proc.devRef .tc main_arg1) = U (Proc.devRef .tc main_arg1) :=
  after_of_forall_not_mem (b := Proc.devRef .tc main_arg1) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_arg2 (U : Valuation τ sig (Elt Ideal)) : after (ops2 (F := Ideal)) U (Proc.devRef .tc main_arg2) = U (Proc.devRef .tc main_arg2) :=
  after_of_forall_not_mem (b := Proc.devRef .tc main_arg2) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_arg3 (U : Valuation τ sig (Elt Ideal)) : after (ops2 (F := Ideal)) U (Proc.devRef .tc main_arg3) = U (Proc.devRef .tc main_arg3) :=
  after_of_forall_not_mem (b := Proc.devRef .tc main_arg3) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_arg4 (U : Valuation τ sig (Elt Ideal)) : after (ops2 (F := Ideal)) U (Proc.devRef .tc main_arg4) = U (Proc.devRef .tc main_arg4) :=
  after_of_forall_not_mem (b := Proc.devRef .tc main_arg4) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))
theorem c2_arg5 (U : Valuation τ sig (Elt Ideal)) : after (ops2 (F := Ideal)) U (Proc.devRef .tc main_arg5) = U (Proc.devRef .tc main_arg5) :=
  after_of_forall_not_mem (b := Proc.devRef .tc main_arg5) _ _ (List.forall_iff_forall_mem.mp (by
    simp only [ops2, List.Forall, nullary_writes, unary_writes, binary_writes, ternary_writes, quaternary_writes, reshape_writes, binaryIndexed_writes, Finset.mem_singleton]
    repeat' apply And.intro
    all_goals exact devRef_ne_of_ne (by decide)))

theorem c3_src (U : Valuation τ sig (Elt Ideal)) : after (ops3 (F := Ideal)) U (Proc.devRef .tc main_v3) = U (Proc.devRef .tc main_v3) :=
  after_of_forall_not_mem (b := Proc.devRef .tc main_v3) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_dst (U : Valuation τ sig (Elt Ideal)) : after (ops3 (F := Ideal)) U (Proc.devRef .tc main_v6) = U (Proc.devRef .tc main_v6) :=
  after_of_forall_not_mem (b := Proc.devRef .tc main_v6) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_norm (U : Valuation τ sig (Elt Ideal)) : after (ops3 (F := Ideal)) U (Proc.devRef .tc main_v29) = U (Proc.devRef .tc main_v29) :=
  after_of_forall_not_mem (b := Proc.devRef .tc main_v29) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_arg0 (U : Valuation τ sig (Elt Ideal)) : after (ops3 (F := Ideal)) U (Proc.devRef .tc main_arg0) = U (Proc.devRef .tc main_arg0) :=
  after_of_forall_not_mem (b := Proc.devRef .tc main_arg0) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_arg1 (U : Valuation τ sig (Elt Ideal)) : after (ops3 (F := Ideal)) U (Proc.devRef .tc main_arg1) = U (Proc.devRef .tc main_arg1) :=
  after_of_forall_not_mem (b := Proc.devRef .tc main_arg1) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_arg2 (U : Valuation τ sig (Elt Ideal)) : after (ops3 (F := Ideal)) U (Proc.devRef .tc main_arg2) = U (Proc.devRef .tc main_arg2) :=
  after_of_forall_not_mem (b := Proc.devRef .tc main_arg2) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_arg3 (U : Valuation τ sig (Elt Ideal)) : after (ops3 (F := Ideal)) U (Proc.devRef .tc main_arg3) = U (Proc.devRef .tc main_arg3) :=
  after_of_forall_not_mem (b := Proc.devRef .tc main_arg3) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_arg4 (U : Valuation τ sig (Elt Ideal)) : after (ops3 (F := Ideal)) U (Proc.devRef .tc main_arg4) = U (Proc.devRef .tc main_arg4) :=
  after_of_forall_not_mem (b := Proc.devRef .tc main_arg4) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))
theorem c3_arg5 (U : Valuation τ sig (Elt Ideal)) : after (ops3 (F := Ideal)) U (Proc.devRef .tc main_arg5) = U (Proc.devRef .tc main_arg5) :=
  after_of_forall_not_mem (b := Proc.devRef .tc main_arg5) _ _ (List.forall_iff_forall_mem.mp (by
    simp only [ops3, List.Forall, nullary_writes, unary_writes, binary_writes, ternary_writes, quaternary_writes, reshape_writes, binaryIndexed_writes, Finset.mem_singleton]
    repeat' apply And.intro
    all_goals exact devRef_ne_of_ne (by decide)))

theorem c4_src (U : Valuation τ sig (Elt Ideal)) : after (ops4 (F := Ideal)) U (Proc.devRef .tc main_v3) = U (Proc.devRef .tc main_v3) :=
  after_of_forall_not_mem (b := Proc.devRef .tc main_v3) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_dst (U : Valuation τ sig (Elt Ideal)) : after (ops4 (F := Ideal)) U (Proc.devRef .tc main_v6) = U (Proc.devRef .tc main_v6) :=
  after_of_forall_not_mem (b := Proc.devRef .tc main_v6) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_norm (U : Valuation τ sig (Elt Ideal)) : after (ops4 (F := Ideal)) U (Proc.devRef .tc main_v29) = U (Proc.devRef .tc main_v29) :=
  after_of_forall_not_mem (b := Proc.devRef .tc main_v29) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_arg0 (U : Valuation τ sig (Elt Ideal)) : after (ops4 (F := Ideal)) U (Proc.devRef .tc main_arg0) = U (Proc.devRef .tc main_arg0) :=
  after_of_forall_not_mem (b := Proc.devRef .tc main_arg0) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_arg1 (U : Valuation τ sig (Elt Ideal)) : after (ops4 (F := Ideal)) U (Proc.devRef .tc main_arg1) = U (Proc.devRef .tc main_arg1) :=
  after_of_forall_not_mem (b := Proc.devRef .tc main_arg1) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_arg2 (U : Valuation τ sig (Elt Ideal)) : after (ops4 (F := Ideal)) U (Proc.devRef .tc main_arg2) = U (Proc.devRef .tc main_arg2) :=
  after_of_forall_not_mem (b := Proc.devRef .tc main_arg2) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_arg3 (U : Valuation τ sig (Elt Ideal)) : after (ops4 (F := Ideal)) U (Proc.devRef .tc main_arg3) = U (Proc.devRef .tc main_arg3) :=
  after_of_forall_not_mem (b := Proc.devRef .tc main_arg3) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_arg4 (U : Valuation τ sig (Elt Ideal)) : after (ops4 (F := Ideal)) U (Proc.devRef .tc main_arg4) = U (Proc.devRef .tc main_arg4) :=
  after_of_forall_not_mem (b := Proc.devRef .tc main_arg4) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))
theorem c4_arg5 (U : Valuation τ sig (Elt Ideal)) : after (ops4 (F := Ideal)) U (Proc.devRef .tc main_arg5) = U (Proc.devRef .tc main_arg5) :=
  after_of_forall_not_mem (b := Proc.devRef .tc main_arg5) _ _ (List.forall_iff_forall_mem.mp (by
    simp only [ops4, List.Forall, nullary_writes, unary_writes, binary_writes, ternary_writes, quaternary_writes, reshape_writes, binaryIndexed_writes, Finset.mem_singleton]
    repeat' apply And.intro
    all_goals exact devRef_ne_of_ne (by decide)))

theorem c5a_arg0 (U : Valuation τ sig (Elt Ideal)) : after (ops5a (F := Ideal)) U (Proc.devRef .tc main_arg0) = U (Proc.devRef .tc main_arg0) :=
  after_of_forall_not_mem (b := Proc.devRef .tc main_arg0) _ _ (List.forall_iff_forall_mem.mp (by
    simp only [ops5a, List.Forall, nullary_writes, unary_writes, binary_writes, ternary_writes, quaternary_writes, reshape_writes, binaryIndexed_writes, Finset.mem_singleton]
    repeat' apply And.intro
    all_goals exact devRef_ne_of_ne (by decide)))
theorem c5a_arg1 (U : Valuation τ sig (Elt Ideal)) : after (ops5a (F := Ideal)) U (Proc.devRef .tc main_arg1) = U (Proc.devRef .tc main_arg1) :=
  after_of_forall_not_mem (b := Proc.devRef .tc main_arg1) _ _ (List.forall_iff_forall_mem.mp (by
    simp only [ops5a, List.Forall, nullary_writes, unary_writes, binary_writes, ternary_writes, quaternary_writes, reshape_writes, binaryIndexed_writes, Finset.mem_singleton]
    repeat' apply And.intro
    all_goals exact devRef_ne_of_ne (by decide)))
theorem c5a_arg2 (U : Valuation τ sig (Elt Ideal)) : after (ops5a (F := Ideal)) U (Proc.devRef .tc main_arg2) = U (Proc.devRef .tc main_arg2) :=
  after_of_forall_not_mem (b := Proc.devRef .tc main_arg2) _ _ (List.forall_iff_forall_mem.mp (by
    simp only [ops5a, List.Forall, nullary_writes, unary_writes, binary_writes, ternary_writes, quaternary_writes, reshape_writes, binaryIndexed_writes, Finset.mem_singleton]
    repeat' apply And.intro
    all_goals exact devRef_ne_of_ne (by decide)))
theorem c5a_arg3 (U : Valuation τ sig (Elt Ideal)) : after (ops5a (F := Ideal)) U (Proc.devRef .tc main_arg3) = U (Proc.devRef .tc main_arg3) :=
  after_of_forall_not_mem (b := Proc.devRef .tc main_arg3) _ _ (List.forall_iff_forall_mem.mp (by
    simp only [ops5a, List.Forall, nullary_writes, unary_writes, binary_writes, ternary_writes, quaternary_writes, reshape_writes, binaryIndexed_writes, Finset.mem_singleton]
    repeat' apply And.intro
    all_goals exact devRef_ne_of_ne (by decide)))
theorem c5a_arg4 (U : Valuation τ sig (Elt Ideal)) : after (ops5a (F := Ideal)) U (Proc.devRef .tc main_arg4) = U (Proc.devRef .tc main_arg4) :=
  after_of_forall_not_mem (b := Proc.devRef .tc main_arg4) _ _ (List.forall_iff_forall_mem.mp (by
    simp only [ops5a, List.Forall, nullary_writes, unary_writes, binary_writes, ternary_writes, quaternary_writes, reshape_writes, binaryIndexed_writes, Finset.mem_singleton]
    repeat' apply And.intro
    all_goals exact devRef_ne_of_ne (by decide)))
theorem c5a_arg5 (U : Valuation τ sig (Elt Ideal)) : after (ops5a (F := Ideal)) U (Proc.devRef .tc main_arg5) = U (Proc.devRef .tc main_arg5) :=
  after_of_forall_not_mem (b := Proc.devRef .tc main_arg5) _ _ (List.forall_iff_forall_mem.mp (by
    simp only [ops5a, List.Forall, nullary_writes, unary_writes, binary_writes, ternary_writes, quaternary_writes, reshape_writes, binaryIndexed_writes, Finset.mem_singleton]
    repeat' apply And.intro
    all_goals exact devRef_ne_of_ne (by decide)))

theorem c5b_biased (U : Valuation τ sig (Elt Ideal)) : after (ops5b (F := Ideal)) U (Proc.devRef .tc main_v64) = U (Proc.devRef .tc main_v64) :=
  after_of_forall_not_mem (b := Proc.devRef .tc main_v64) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))
theorem c5b_arg0 (U : Valuation τ sig (Elt Ideal)) : after (ops5b (F := Ideal)) U (Proc.devRef .tc main_arg0) = U (Proc.devRef .tc main_arg0) :=
  after_of_forall_not_mem (b := Proc.devRef .tc main_arg0) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))
theorem c5b_arg1 (U : Valuation τ sig (Elt Ideal)) : after (ops5b (F := Ideal)) U (Proc.devRef .tc main_arg1) = U (Proc.devRef .tc main_arg1) :=
  after_of_forall_not_mem (b := Proc.devRef .tc main_arg1) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))
theorem c5b_arg2 (U : Valuation τ sig (Elt Ideal)) : after (ops5b (F := Ideal)) U (Proc.devRef .tc main_arg2) = U (Proc.devRef .tc main_arg2) :=
  after_of_forall_not_mem (b := Proc.devRef .tc main_arg2) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))
theorem c5b_arg3 (U : Valuation τ sig (Elt Ideal)) : after (ops5b (F := Ideal)) U (Proc.devRef .tc main_arg3) = U (Proc.devRef .tc main_arg3) :=
  after_of_forall_not_mem (b := Proc.devRef .tc main_arg3) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))
theorem c5b_arg4 (U : Valuation τ sig (Elt Ideal)) : after (ops5b (F := Ideal)) U (Proc.devRef .tc main_arg4) = U (Proc.devRef .tc main_arg4) :=
  after_of_forall_not_mem (b := Proc.devRef .tc main_arg4) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))
theorem c5b_arg5 (U : Valuation τ sig (Elt Ideal)) : after (ops5b (F := Ideal)) U (Proc.devRef .tc main_arg5) = U (Proc.devRef .tc main_arg5) :=
  after_of_forall_not_mem (b := Proc.devRef .tc main_arg5) _ _ (List.forall_iff_forall_mem.mp (by
    simp only [ops5b, List.Forall, nullary_writes, unary_writes, binary_writes, ternary_writes, quaternary_writes, reshape_writes, binaryIndexed_writes, Finset.mem_singleton]
    repeat' apply And.intro
    all_goals exact devRef_ne_of_ne (by decide)))

theorem c5c_arg0 (U : Valuation τ sig (Elt Ideal)) : after (ops5c (F := Ideal)) U (Proc.devRef .tc main_arg0) = U (Proc.devRef .tc main_arg0) :=
  after_of_forall_not_mem (b := Proc.devRef .tc main_arg0) _ _ (List.forall_iff_forall_mem.mp (by
    simp only [ops5c, List.Forall, nullary_writes, unary_writes, binary_writes, ternary_writes, quaternary_writes, reshape_writes, binaryIndexed_writes, Finset.mem_singleton]
    repeat' apply And.intro
    all_goals exact devRef_ne_of_ne (by decide)))
theorem c5c_arg1 (U : Valuation τ sig (Elt Ideal)) : after (ops5c (F := Ideal)) U (Proc.devRef .tc main_arg1) = U (Proc.devRef .tc main_arg1) :=
  after_of_forall_not_mem (b := Proc.devRef .tc main_arg1) _ _ (List.forall_iff_forall_mem.mp (by
    simp only [ops5c, List.Forall, nullary_writes, unary_writes, binary_writes, ternary_writes, quaternary_writes, reshape_writes, binaryIndexed_writes, Finset.mem_singleton]
    repeat' apply And.intro
    all_goals exact devRef_ne_of_ne (by decide)))
theorem c5c_arg2 (U : Valuation τ sig (Elt Ideal)) : after (ops5c (F := Ideal)) U (Proc.devRef .tc main_arg2) = U (Proc.devRef .tc main_arg2) :=
  after_of_forall_not_mem (b := Proc.devRef .tc main_arg2) _ _ (List.forall_iff_forall_mem.mp (by
    simp only [ops5c, List.Forall, nullary_writes, unary_writes, binary_writes, ternary_writes, quaternary_writes, reshape_writes, binaryIndexed_writes, Finset.mem_singleton]
    repeat' apply And.intro
    all_goals exact devRef_ne_of_ne (by decide)))
theorem c5c_arg3 (U : Valuation τ sig (Elt Ideal)) : after (ops5c (F := Ideal)) U (Proc.devRef .tc main_arg3) = U (Proc.devRef .tc main_arg3) :=
  after_of_forall_not_mem (b := Proc.devRef .tc main_arg3) _ _ (List.forall_iff_forall_mem.mp (by
    simp only [ops5c, List.Forall, nullary_writes, unary_writes, binary_writes, ternary_writes, quaternary_writes, reshape_writes, binaryIndexed_writes, Finset.mem_singleton]
    repeat' apply And.intro
    all_goals exact devRef_ne_of_ne (by decide)))
theorem c5c_arg4 (U : Valuation τ sig (Elt Ideal)) : after (ops5c (F := Ideal)) U (Proc.devRef .tc main_arg4) = U (Proc.devRef .tc main_arg4) :=
  after_of_forall_not_mem (b := Proc.devRef .tc main_arg4) _ _ (List.forall_iff_forall_mem.mp (by
    simp only [ops5c, List.Forall, nullary_writes, unary_writes, binary_writes, ternary_writes, quaternary_writes, reshape_writes, binaryIndexed_writes, Finset.mem_singleton]
    repeat' apply And.intro
    all_goals exact devRef_ne_of_ne (by decide)))
theorem c5c_arg5 (U : Valuation τ sig (Elt Ideal)) : after (ops5c (F := Ideal)) U (Proc.devRef .tc main_arg5) = U (Proc.devRef .tc main_arg5) :=
  after_of_forall_not_mem (b := Proc.devRef .tc main_arg5) _ _ (List.forall_iff_forall_mem.mp (by
    simp only [ops5c, List.Forall, nullary_writes, unary_writes, binary_writes, ternary_writes, quaternary_writes, reshape_writes, binaryIndexed_writes, Finset.mem_singleton]
    repeat' apply And.intro
    all_goals exact devRef_ne_of_ne (by decide)))

theorem c5d_arg0 (U : Valuation τ sig (Elt Ideal)) : after (ops5d (F := Ideal)) U (Proc.devRef .tc main_arg0) = U (Proc.devRef .tc main_arg0) :=
  after_of_forall_not_mem (b := Proc.devRef .tc main_arg0) _ _ (List.forall_iff_forall_mem.mp (by
    simp only [ops5d, List.Forall, nullary_writes, unary_writes, binary_writes, ternary_writes, quaternary_writes, reshape_writes, binaryIndexed_writes, Finset.mem_singleton]
    repeat' apply And.intro
    all_goals exact devRef_ne_of_ne (by decide)))
theorem c5d_arg1 (U : Valuation τ sig (Elt Ideal)) : after (ops5d (F := Ideal)) U (Proc.devRef .tc main_arg1) = U (Proc.devRef .tc main_arg1) :=
  after_of_forall_not_mem (b := Proc.devRef .tc main_arg1) _ _ (List.forall_iff_forall_mem.mp (by
    simp only [ops5d, List.Forall, nullary_writes, unary_writes, binary_writes, ternary_writes, quaternary_writes, reshape_writes, binaryIndexed_writes, Finset.mem_singleton]
    repeat' apply And.intro
    all_goals exact devRef_ne_of_ne (by decide)))
theorem c5d_arg2 (U : Valuation τ sig (Elt Ideal)) : after (ops5d (F := Ideal)) U (Proc.devRef .tc main_arg2) = U (Proc.devRef .tc main_arg2) :=
  after_of_forall_not_mem (b := Proc.devRef .tc main_arg2) _ _ (List.forall_iff_forall_mem.mp (by
    simp only [ops5d, List.Forall, nullary_writes, unary_writes, binary_writes, ternary_writes, quaternary_writes, reshape_writes, binaryIndexed_writes, Finset.mem_singleton]
    repeat' apply And.intro
    all_goals exact devRef_ne_of_ne (by decide)))
theorem c5d_arg3 (U : Valuation τ sig (Elt Ideal)) : after (ops5d (F := Ideal)) U (Proc.devRef .tc main_arg3) = U (Proc.devRef .tc main_arg3) :=
  after_of_forall_not_mem (b := Proc.devRef .tc main_arg3) _ _ (List.forall_iff_forall_mem.mp (by
    simp only [ops5d, List.Forall, nullary_writes, unary_writes, binary_writes, ternary_writes, quaternary_writes, reshape_writes, binaryIndexed_writes, Finset.mem_singleton]
    repeat' apply And.intro
    all_goals exact devRef_ne_of_ne (by decide)))
theorem c5d_arg4 (U : Valuation τ sig (Elt Ideal)) : after (ops5d (F := Ideal)) U (Proc.devRef .tc main_arg4) = U (Proc.devRef .tc main_arg4) :=
  after_of_forall_not_mem (b := Proc.devRef .tc main_arg4) _ _ (List.forall_iff_forall_mem.mp (by
    simp only [ops5d, List.Forall, nullary_writes, unary_writes, binary_writes, ternary_writes, quaternary_writes, reshape_writes, binaryIndexed_writes, Finset.mem_singleton]
    repeat' apply And.intro
    all_goals exact devRef_ne_of_ne (by decide)))
theorem c5d_arg5 (U : Valuation τ sig (Elt Ideal)) : after (ops5d (F := Ideal)) U (Proc.devRef .tc main_arg5) = U (Proc.devRef .tc main_arg5) :=
  after_of_forall_not_mem (b := Proc.devRef .tc main_arg5) _ _ (List.forall_iff_forall_mem.mp (by
    simp only [ops5d, List.Forall, nullary_writes, unary_writes, binary_writes, ternary_writes, quaternary_writes, reshape_writes, binaryIndexed_writes, Finset.mem_singleton]
    repeat' apply And.intro
    all_goals exact devRef_ne_of_ne (by decide)))
/-! ## What each slice computes -/

theorem c0a_src (U : Valuation τ sig (Elt Ideal)) : after (ops0a (F := Ideal)) U (Proc.devRef .tc main_v3) = srcOf (U (Proc.devRef .tc main_arg1)) := by
  simp only [ops0a]
  after_results
  rfl
theorem c0a_dst (U : Valuation τ sig (Elt Ideal)) : after (ops0a (F := Ideal)) U (Proc.devRef .tc main_v6) = dstOf (U (Proc.devRef .tc main_arg1)) := by
  simp only [ops0a]
  after_results
  rfl
theorem c0a_pos (U : Valuation τ sig (Elt Ideal)) : after (ops0a (F := Ideal)) U (Proc.devRef .tc main_v12)
    = cmpf (F := Ideal) .ogt (degrees (F := Ideal) (dstOf (U (Proc.devRef .tc main_arg1)))) (broadcastInDim S100000 ![] bcast_S_S100000 (constant S_ .f32 0x00000000#32)) := by
  simp only [ops0a]
  after_results
  rfl
theorem c0a_rsqrt (U : Valuation τ sig (Elt Ideal)) : after (ops0a (F := Ideal)) U (Proc.devRef .tc main_v13) = Host.rsqrt (F := Ideal) (φ := .f32) (degrees (F := Ideal) (dstOf (U (Proc.devRef .tc main_arg1)))) := by
  simp only [ops0a]
  after_results
  rfl
theorem c0a_zero (U : Valuation τ sig (Elt Ideal)) : after (ops0a (F := Ideal)) U (Proc.devRef .tc main_cst_2) = constant (F := Ideal) S_ .f32 0x00000000#32 := by
  simp only [ops0a]
  after_results

theorem c0b_where (U : Valuation τ sig (Elt Ideal)) : after (ops0b (F := Ideal)) U (Proc.devRef .tc main_v14)
    = whereSel (F := Ideal) (U (Proc.devRef .tc main_v12)) (U (Proc.devRef .tc main_v13)) (U (Proc.devRef .tc main_cst_2)) := by
  simp only [ops0b]
  after_results
  rfl

set_option maxHeartbeats 8000000 in
theorem c0c_norm (U : Valuation τ sig (Elt Ideal)) : after (ops0c (F := Ideal)) U (Proc.devRef .tc main_v29)
    = normFrom (F := Ideal) (U (Proc.devRef .tc main_v14)) (U (Proc.devRef .tc main_v3)) (U (Proc.devRef .tc main_v6)) := by
  simp only [ops0c]
  after_results
  rfl

theorem c1_out (U : Valuation τ sig (Elt Ideal)) : after (ops1 (F := Ideal)) U (Proc.devRef .tc main_v30) = dense (U (Proc.devRef .tc main_arg0)) (U (Proc.devRef .tc main_arg2)) := by
  simp only [ops1]
  after_results
  exact product_eq _ _

set_option maxHeartbeats 8000000 in
theorem c2_out (U : Valuation τ sig (Elt Ideal)) : after (ops2 (F := Ideal)) U (Proc.devRef .tc main_v43)
    = aggregate32 (F := Ideal) (U (Proc.devRef .tc main_v30)) (U (Proc.devRef .tc main_v3)) (U (Proc.devRef .tc main_v6)) (U (Proc.devRef .tc main_v29)) := by
  simp only [ops2]
  after_results
  rfl

theorem c3_out (U : Valuation τ sig (Elt Ideal)) : after (ops3 (F := Ideal)) U (Proc.devRef .tc main_v48)
    = hidden (U (Proc.devRef .tc main_v43)) (U (Proc.devRef .tc main_arg3)) (U (Proc.devRef .tc main_arg4)) := by
  simp only [ops3]
  after_results
  exact hidden_eq _ _ _

set_option maxHeartbeats 8000000 in
theorem c4_out (U : Valuation τ sig (Elt Ideal)) : after (ops4 (F := Ideal)) U (Proc.devRef .tc main_v61)
    = aggregate8 (F := Ideal) (U (Proc.devRef .tc main_v48)) (U (Proc.devRef .tc main_v3)) (U (Proc.devRef .tc main_v6)) (U (Proc.devRef .tc main_v29)) := by
  simp only [ops4]
  after_results
  rfl

theorem c5a_out (U : Valuation τ sig (Elt Ideal)) : after (ops5a (F := Ideal)) U (Proc.devRef .tc main_v64) = biased (U (Proc.devRef .tc main_v61)) (U (Proc.devRef .tc main_arg5)) := by
  simp only [ops5a]
  after_results
  rfl

theorem c5b_out (U : Valuation τ sig (Elt Ideal)) : after (ops5b (F := Ideal)) U (Proc.devRef .tc main_call2_v2) = rowMaxV (U (Proc.devRef .tc main_v64)) := by
  simp only [ops5b]
  after_results
  unfold rowMaxV
  rfl

theorem c5c_out (U : Valuation τ sig (Elt Ideal)) : after (ops5c (F := Ideal)) U (Proc.devRef .tc main_call2_v5) = shiftBy (U (Proc.devRef .tc main_v64)) (U (Proc.devRef .tc main_call2_v2)) := by
  simp only [ops5c]
  after_results
  unfold shiftBy
  rfl

set_option maxHeartbeats 4000000 in
theorem c5d_out (U : Valuation τ sig (Elt Ideal)) : after (ops5d (F := Ideal)) U (Proc.devRef .tc main_v65) = normalized (U (Proc.devRef .tc main_call2_v5)) := by
  simp only [ops5d]
  after_results
  unfold normalized
  rfl

/-! ## The whole fold -/

/-- From ANY launch contents the fold of @main's operations leaves, in the result buffer, the network's function of the
    six argument buffers' contents. -/
theorem fold_result (L : Valuation τ sig (Elt Ideal)) :
    after (ops (F := Ideal)) L (Proc.devRef .tc main_v65)
      = network (L (Proc.devRef .tc main_arg0)) (L (Proc.devRef .tc main_arg1)) (L (Proc.devRef .tc main_arg2)) (L (Proc.devRef .tc main_arg3)) (L (Proc.devRef .tc main_arg4)) (L (Proc.devRef .tc main_arg5)) := by
  rw [ops_split, after_append, after_append, after_append, after_append, after_append, after_append, after_append, after_append, after_append, after_append]
  rw [c5d_out, c5c_out, c5b_out, c5b_biased, c5a_out, logSoftmax_eq']
  rw [c4_out, c4_arg5]
  rw [c3_out, c3_src, c3_dst, c3_norm, c3_arg5]
  rw [c2_out, c2_src, c2_dst, c2_norm, c2_arg3, c2_arg4, c2_arg5]
  rw [c1_out, c1_src, c1_dst, c1_norm, c1_arg3, c1_arg4, c1_arg5]
  rw [c0c_norm, c0c_src, c0c_dst, c0c_arg0, c0c_arg2, c0c_arg3, c0c_arg4, c0c_arg5]
  rw [c0b_where, c0b_src, c0b_dst, c0b_arg0, c0b_arg2, c0b_arg3, c0b_arg4, c0b_arg5]
  rw [c0a_pos, c0a_rsqrt, c0a_zero, c0a_src, c0a_dst, c0a_arg0, c0a_arg2, c0a_arg3, c0a_arg4, c0a_arg5]
  rfl

/-! ## The arguments: no operation writes one -/

theorem fold_arg0 (L : Valuation τ sig (Elt Ideal)) : after (ops (F := Ideal)) L (Proc.devRef .tc main_arg0) = L (Proc.devRef .tc main_arg0) := by
  rw [ops_split, after_append, after_append, after_append, after_append, after_append, after_append, after_append, after_append, after_append, after_append]
  rw [c5d_arg0, c5c_arg0, c5b_arg0, c5a_arg0, c4_arg0, c3_arg0, c2_arg0, c1_arg0, c0c_arg0, c0b_arg0, c0a_arg0]
theorem fold_arg1 (L : Valuation τ sig (Elt Ideal)) : after (ops (F := Ideal)) L (Proc.devRef .tc main_arg1) = L (Proc.devRef .tc main_arg1) := by
  rw [ops_split, after_append, after_append, after_append, after_append, after_append, after_append, after_append, after_append, after_append, after_append]
  rw [c5d_arg1, c5c_arg1, c5b_arg1, c5a_arg1, c4_arg1, c3_arg1, c2_arg1, c1_arg1, c0c_arg1, c0b_arg1, c0a_arg1]
theorem fold_arg2 (L : Valuation τ sig (Elt Ideal)) : after (ops (F := Ideal)) L (Proc.devRef .tc main_arg2) = L (Proc.devRef .tc main_arg2) := by
  rw [ops_split, after_append, after_append, after_append, after_append, after_append, after_append, after_append, after_append, after_append, after_append]
  rw [c5d_arg2, c5c_arg2, c5b_arg2, c5a_arg2, c4_arg2, c3_arg2, c2_arg2, c1_arg2, c0c_arg2, c0b_arg2, c0a_arg2]
theorem fold_arg3 (L : Valuation τ sig (Elt Ideal)) : after (ops (F := Ideal)) L (Proc.devRef .tc main_arg3) = L (Proc.devRef .tc main_arg3) := by
  rw [ops_split, after_append, after_append, after_append, after_append, after_append, after_append, after_append, after_append, after_append, after_append]
  rw [c5d_arg3, c5c_arg3, c5b_arg3, c5a_arg3, c4_arg3, c3_arg3, c2_arg3, c1_arg3, c0c_arg3, c0b_arg3, c0a_arg3]
theorem fold_arg4 (L : Valuation τ sig (Elt Ideal)) : after (ops (F := Ideal)) L (Proc.devRef .tc main_arg4) = L (Proc.devRef .tc main_arg4) := by
  rw [ops_split, after_append, after_append, after_append, after_append, after_append, after_append, after_append, after_append, after_append, after_append]
  rw [c5d_arg4, c5c_arg4, c5b_arg4, c5a_arg4, c4_arg4, c3_arg4, c2_arg4, c1_arg4, c0c_arg4, c0b_arg4, c0a_arg4]
theorem fold_arg5 (L : Valuation τ sig (Elt Ideal)) : after (ops (F := Ideal)) L (Proc.devRef .tc main_arg5) = L (Proc.devRef .tc main_arg5) := by
  rw [ops_split, after_append, after_append, after_append, after_append, after_append, after_append, after_append, after_append, after_append, after_append]
  rw [c5d_arg5, c5c_arg5, c5b_arg5, c5a_arg5, c4_arg5, c3_arg5, c2_arg5, c1_arg5, c0c_arg5, c0b_arg5, c0a_arg5]

end Cert.ReferenceIdeal.Fold

end
-- ==== Proof.lean ====
/-
  The certificate of a two-layer graph convolution network: a program of three pallas_calls (x · w₁; relu(· + b₁) · w₂;
  log-softmax(· + b₂)) among host gathers, scalings and scatter-additions over the graph's edges, against the same network
  written in plain jnp.

  At the extended reals both programs compute ONE function of the six argument arrays, `network`: the matrix product
  x · w₁, aggregated over the edges (rows gathered at the edges' sources, scaled by the symmetric normalization, added
  at the edges' targets), through the hidden layer, aggregated again, through the biased log-softmax. The kernel side:
  each call's result array is the stage's function of the arrays the call finds (Stage0, Stage1, Stage2: the ten row
  blocks tile the array; a block product on the matrix unit into a zero accumulator is the plain sum; the lane
  reductions are the row maximum and the row sum), and the buffer contents are followed through @main's eight segments
  (KernelValue). The reference side: its 98 host operations in six slices that mirror those segments (RefFold), its
  general dot products and jax's log-softmax read index by index (RefLayers, RefSoftmax). The aggregations, the normalization and
  the index arithmetic are the same host operations of equal operands on both sides and are never opened. No law that
  needs finiteness is used: the two sides differ only in how sums and maxima are bracketed, so the precondition is not
  opened.

  The three frames: the two kernel programs' are the generated frame certificates; the reference's is its run with the
  result dropped. The ideal pass rewrote nothing, so `preserves` is `True`.
-/
import proofs.«131457_j35519379537969_1_alg».proof.Defs
import proofs.«131457_j35519379537969_1_alg».proof.Proof.Gen.Kernel
import proofs.«131457_j35519379537969_1_alg».proof.Proof.Gen.Kernel.Frame
import proofs.«131457_j35519379537969_1_alg».proof.Proof.Gen.KernelIdeal
import proofs.«131457_j35519379537969_1_alg».proof.Proof.Gen.KernelIdeal.Frame
import proofs.«131457_j35519379537969_1_alg».proof.Proof.Gen.ReferenceIdeal
import proofs.«131457_j35519379537969_1_alg».proof.Proof.Gen.Pre_finite_inputs
import proofs.«131457_j35519379537969_1_alg».proof.Proof.KernelRun
import proofs.«131457_j35519379537969_1_alg».proof.Proof.KernelValue
import proofs.«131457_j35519379537969_1_alg».proof.Proof.RefRunP
import proofs.«131457_j35519379537969_1_alg».proof.Proof.RefFold
import Idealize.ShloMosaic.Adequacy
import Idealize.ShloMosaic.Init

noncomputable section

namespace Cert.Proof

open Idealize.ShloMosaic Idealize.ShloMosaic.TcCoe Idealize.SL.Sem
open Cert.KernelIdeal.HostTerms

theorem frame_kernel : Cert.frame_Kernel := fun m ρ _ => Cert.Kernel.Gen.frame m ρ

theorem frame_kernelIdeal : Cert.frame_KernelIdeal := fun m ρ _ => Cert.KernelIdeal.Gen.frame m ρ

/-- The reference runs and no operation writes an argument: its fold read at each argument buffer. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.Fold.fold_arg0 _),
       (h c Cert.ReferenceIdeal.main_arg1).trans (Cert.ReferenceIdeal.Fold.fold_arg1 _),
       (h c Cert.ReferenceIdeal.main_arg2).trans (Cert.ReferenceIdeal.Fold.fold_arg2 _),
       (h c Cert.ReferenceIdeal.main_arg3).trans (Cert.ReferenceIdeal.Fold.fold_arg3 _),
       (h c Cert.ReferenceIdeal.main_arg4).trans (Cert.ReferenceIdeal.Fold.fold_arg4 _),
       (h c Cert.ReferenceIdeal.main_arg5).trans (Cert.ReferenceIdeal.Fold.fold_arg5 _)⟩)
    (Cert.ReferenceIdeal.ValueP.run_fold (F := Ideal) m ρ)

theorem preserves : Cert.preserves_Kernel_KernelIdeal := trivial

/-- Both programs end with the network's function of the arguments in their result arrays, and arguments that agree
    give equal results. -/
theorem algebraic : Cert.algebraic_KernelIdeal_ReferenceIdeal := by
  intro m ρ m' ρ' _ hagree
  refine ⟨fun c => network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.FoldValue.W8_result m ρ c), (h c).2⟩)
      (Cert.KernelIdeal.RunValue.run_result (F := Ideal) m ρ)
  · refine (θ_run Cert.ReferenceIdeal.defs _ _).mono (fun r h c => ⟨?_,
        (h c Cert.ReferenceIdeal.main_arg0).trans (Cert.ReferenceIdeal.Fold.fold_arg0 _),
        (h c Cert.ReferenceIdeal.main_arg1).trans (Cert.ReferenceIdeal.Fold.fold_arg1 _),
        (h c Cert.ReferenceIdeal.main_arg2).trans (Cert.ReferenceIdeal.Fold.fold_arg2 _),
        (h c Cert.ReferenceIdeal.main_arg3).trans (Cert.ReferenceIdeal.Fold.fold_arg3 _),
        (h c Cert.ReferenceIdeal.main_arg4).trans (Cert.ReferenceIdeal.Fold.fold_arg4 _),
        (h c Cert.ReferenceIdeal.main_arg5).trans (Cert.ReferenceIdeal.Fold.fold_arg5 _)⟩)
      (Cert.ReferenceIdeal.ValueP.run_fold (F := Ideal) m' ρ')
    refine ((h c Cert.ReferenceIdeal.main_v65).trans (Cert.ReferenceIdeal.Fold.fold_result _)).trans ?_
    show network (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
